-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x103 : Shape := ⟨2, ![256, 103]⟩
abbrev S103 : Shape := ⟨1, ![103]⟩
abbrev S256x119 : Shape := ⟨2, ![256, 119]⟩
abbrev S119 : Shape := ⟨1, ![119]⟩
abbrev S256x12 : Shape := ⟨2, ![256, 12]⟩
abbrev S12 : Shape := ⟨1, ![12]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x103 : S_.BroadcastsInDim S256x103 (![] : Fin 0 → Fin S256x103.rank)
  reducesTo_S256x103_S_d0_1 : S256x103.ReducesTo [0, 1] S_
  bcast_S_S103 : S_.BroadcastsInDim S103 (![] : Fin 0 → Fin S103.rank)
  reducesTo_S103_S_d0 : S103.ReducesTo [0] S_
  bcast_S_S256x119 : S_.BroadcastsInDim S256x119 (![] : Fin 0 → Fin S256x119.rank)
  reducesTo_S256x119_S_d0_1 : S256x119.ReducesTo [0, 1] S_
  bcast_S_S119 : S_.BroadcastsInDim S119 (![] : Fin 0 → Fin S119.rank)
  reducesTo_S119_S_d0 : S119.ReducesTo [0] S_
  bcast_S_S256x12 : S_.BroadcastsInDim S256x12 (![] : Fin 0 → Fin S256x12.rank)
  reducesTo_S256x12_S_d0_1 : S256x12.ReducesTo [0, 1] S_
  bcast_S_S12 : S_.BroadcastsInDim S12 (![] : Fin 0 → Fin S12.rank)
  reducesTo_S12_S_d0 : S12.ReducesTo [0] S_

variable [Facts]

def fn_part7 {F : FTy → Type} [FloatOps F] (main_arg25 : FVec F S12 .f32) (main_v118 : IVec S_ 1) (main_v119 : FVec F S256x12 .f32) : IVec S_ 1 :=
  let main_cst_46 : FVec F S_ .f32 := constant S_ .f32 0x7F800000#32
  let main_v120 : FVec F S256x12 .f32 := broadcastInDim S256x12 ![] bcast_S_S256x12 main_cst_46
  let main_v121 : IVec S256x12 1 := cmpf .olt main_v119 main_v120
  let main_c_47 : IVec S_ 1 := constantI S_ 1 1#1
  let main_v122 : IVec S_ 1 := (fun x v => Host.reduce IntOp.andi x v reducesTo_S256x12_S_d0_1 h_S_) main_v121 main_c_47
  let main_v123 : IVec S_ 1 := andi main_v118 main_v122
  let main_v124 : FVec F S12 .f32 := Host.absf main_arg25
  let main_cst_48 : FVec F S_ .f32 := constant S_ .f32 0x7F800000#32
  let main_v125 : FVec F S12 .f32 := broadcastInDim S12 ![] bcast_S_S12 main_cst_48
  let main_v126 : IVec S12 1 := cmpf .olt main_v124 main_v125
  let main_c_49 : IVec S_ 1 := constantI S_ 1 1#1
  let main_v127 : IVec S_ 1 := (fun x v => Host.reduce IntOp.andi x v reducesTo_S12_S_d0 h_S_) main_v126 main_c_49
  let main_v128 : IVec S_ 1 := andi main_v123 main_v127
  main_v128

def fn_part6 {F : FTy → Type} [FloatOps F] (main_arg21 : FVec F S103 .f32) (main_arg22 : FVec F S256x119 .f32) (main_arg23 : FVec F S119 .f32) (main_arg24 : FVec F S256x12 .f32) (main_arg25 : FVec F S12 .f32) (main_v98 : IVec S_ 1) (main_v101 : IVec S256x103 1) (main_c_39 : IVec S_ 1) : IVec S_ 1 :=
  let main_v102 : IVec S_ 1 := (fun x v => Host.reduce IntOp.andi x v reducesTo_S256x103_S_d0_1 h_S_) main_v101 main_c_39
  let main_v103 : IVec S_ 1 := andi main_v98 main_v102
  let main_v104 : FVec F S103 .f32 := Host.absf main_arg21
  let main_cst_40 : FVec F S_ .f32 := constant S_ .f32 0x7F800000#32
  let main_v105 : FVec F S103 .f32 := broadcastInDim S103 ![] bcast_S_S103 main_cst_40
  let main_v106 : IVec S103 1 := cmpf .olt main_v104 main_v105
  let main_c_41 : IVec S_ 1 := constantI S_ 1 1#1
  let main_v107 : IVec S_ 1 := (fun x v => Host.reduce IntOp.andi x v reducesTo_S103_S_d0 h_S_) main_v106 main_c_41
  let main_v108 : IVec S_ 1 := andi main_v103 main_v107
  let main_v109 : FVec F S256x119 .f32 := Host.absf main_arg22
  let main_cst_42 : FVec F S_ .f32 := constant S_ .f32 0x7F800000#32
  let main_v110 : FVec F S256x119 .f32 := broadcastInDim S256x119 ![] bcast_S_S256x119 main_cst_42
  let main_v111 : IVec S256x119 1 := cmpf .olt main_v109 main_v110
  let main_c_43 : IVec S_ 1 := constantI S_ 1 1#1
  let main_v112 : IVec S_ 1 := (fun x v => Host.reduce IntOp.andi x v reducesTo_S256x119_S_d0_1 h_S_) main_v111 main_c_43
  let main_v113 : IVec S_ 1 := andi main_v108 main_v112
  let main_v114 : FVec F S119 .f32 := Host.absf main_arg23
  let main_cst_44 : FVec F S_ .f32 := constant S_ .f32 0x7F800000#32
  let main_v115 : FVec F S119 .f32 := broadcastInDim S119 ![] bcast_S_S119 main_cst_44
  let main_v116 : IVec S119 1 := cmpf .olt main_v114 main_v115
  let main_c_45 : IVec S_ 1 := constantI S_ 1 1#1
  let main_v117 : IVec S_ 1 := (fun x v => Host.reduce IntOp.andi x v reducesTo_S119_S_d0 h_S_) main_v116 main_c_45
  let main_v118 : IVec S_ 1 := andi main_v113 main_v117
  let main_v119 : FVec F S256x12 .f32 := Host.absf main_arg24
  fn_part7 (F := F) main_arg25 main_v118 main_v119

def fn_part5 {F : FTy → Type} [FloatOps F] (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x103 .f32 := Host.absf main_arg20
  let main_cst_38 : FVec F S_ .f32 := constant S_ .f32 0x7F800000#32
  let main_v100 : FVec F S256x103 .f32 := broadcastInDim S256x103 ![] bcast_S_S256x103 main_cst_38
  let main_v101 : IVec S256x103 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256x1024 .f32) (main_arg8 : FVec F S256x1024 .f32) (main_arg9 : FVec F S1024 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x1024 .f32) (main_arg5 : FVec F S256x1024 .f32) (main_arg6 : FVec F S1024 .f32) (main_arg7 : FVec F S256x1024 .f32) (main_arg8 : FVec F S256x1024 .f32) (main_arg9 : FVec F S1024 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x256 .f32) (main_arg1 : FVec F S256x1024 .f32) (main_arg2 : FVec F S256x1024 .f32) (main_arg3 : FVec F S1024 .f32) (main_arg4 : FVec F S256x1024 .f32) (main_arg5 : FVec F S256x1024 .f32) (main_arg6 : FVec F S1024 .f32) (main_arg7 : FVec F S256x1024 .f32) (main_arg8 : FVec F S256x1024 .f32) (main_arg9 : FVec F S1024 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x103 .f32) (main_arg21 : FVec F S103 .f32) (main_arg22 : FVec F S256x119 .f32) (main_arg23 : FVec F S119 .f32) (main_arg24 : FVec F S256x12 .f32) (main_arg25 : FVec F S12 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x256 : Shape := ⟨2, ![65536, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x103 : Shape := ⟨2, ![256, 103]⟩
abbrev S103 : Shape := ⟨1, ![103]⟩
abbrev S256x119 : Shape := ⟨2, ![256, 119]⟩
abbrev S119 : Shape := ⟨1, ![119]⟩
abbrev S256x12 : Shape := ⟨2, ![256, 12]⟩
abbrev S12 : Shape := ⟨1, ![12]⟩
abbrev S1x1024 : Shape := ⟨2, ![1, 1024]⟩
abbrev S1x256 : Shape := ⟨2, ![1, 256]⟩
abbrev S1x103 : Shape := ⟨2, ![1, 103]⟩
abbrev S1x119 : Shape := ⟨2, ![1, 119]⟩
abbrev S1x12 : Shape := ⟨2, ![1, 12]⟩
abbrev S65536x103 : Shape := ⟨2, ![65536, 103]⟩
abbrev S65536x119 : Shape := ⟨2, ![65536, 119]⟩
abbrev S65536x12 : Shape := ⟨2, ![65536, 12]⟩
abbrev S512x256 : Shape := ⟨2, ![512, 256]⟩
abbrev S512x103 : Shape := ⟨2, ![512, 103]⟩
abbrev S512x119 : Shape := ⟨2, ![512, 119]⟩
abbrev S512x12 : Shape := ⟨2, ![512, 12]⟩
abbrev S512x1024 : Shape := ⟨2, ![512, 1024]⟩

abbrev nBuf : Space → Nat
  | .hbm => 54
  | .vmem => 33
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S1024, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x103, .f32⟩
  | .hbm, ⟨21, _⟩ => ⟨S103, .f32⟩
  | .hbm, ⟨22, _⟩ => ⟨S256x119, .f32⟩
  | .hbm, ⟨23, _⟩ => ⟨S119, .f32⟩
  | .hbm, ⟨24, _⟩ => ⟨S256x12, .f32⟩
  | .hbm, ⟨25, _⟩ => ⟨S12, .f32⟩
  | .hbm, ⟨26, _⟩ => ⟨S256x1024, .bf16⟩
  | .hbm, ⟨27, _⟩ => ⟨S256x1024, .bf16⟩
  | .hbm, ⟨28, _⟩ => ⟨S256x1024, .bf16⟩
  | .hbm, ⟨29, _⟩ => ⟨S256x1024, .bf16⟩
  | .hbm, ⟨30, _⟩ => ⟨S256x1024, .bf16⟩
  | .hbm, ⟨31, _⟩ => ⟨S256x1024, .bf16⟩
  | .hbm, ⟨32, _⟩ => ⟨S256x256, .bf16⟩
  | .hbm, ⟨33, _⟩ => ⟨S256x256, .bf16⟩
  | .hbm, ⟨34, _⟩ => ⟨S256x256, .bf16⟩
  | .hbm, ⟨35, _⟩ => ⟨S256x256, .bf16⟩
  | .hbm, ⟨36, _⟩ => ⟨S256x256, .bf16⟩
  | .hbm, ⟨37, _⟩ => ⟨S256x103, .bf16⟩
  | .hbm, ⟨38, _⟩ => ⟨S256x119, .bf16⟩
  | .hbm, ⟨39, _⟩ => ⟨S256x12, .bf16⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x103, .f32⟩
  | .hbm, ⟨49, _⟩ => ⟨S1x119, .f32⟩
  | .hbm, ⟨50, _⟩ => ⟨S1x12, .f32⟩
  | .hbm, ⟨51, _⟩ => ⟨S65536x103, .f32⟩
  | .hbm, ⟨52, _⟩ => ⟨S65536x119, .f32⟩
  | .hbm, ⟨53, _⟩ => ⟨S65536x12, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S256x256, .bf16⟩
  | .local _ .vmem, ⟨16, _⟩ => ⟨S1x256, .f32⟩
  | .local _ .vmem, ⟨17, _⟩ => ⟨S256x103, .bf16⟩
  | .local _ .vmem, ⟨18, _⟩ => ⟨S1x103, .f32⟩
  | .local _ .vmem, ⟨19, _⟩ => ⟨S256x256, .bf16⟩
  | .local _ .vmem, ⟨20, _⟩ => ⟨S1x256, .f32⟩
  | .local _ .vmem, ⟨21, _⟩ => ⟨S256x119, .bf16⟩
  | .local _ .vmem, ⟨22, _⟩ => ⟨S1x119, .f32⟩
  | .local _ .vmem, ⟨23, _⟩ => ⟨S256x256, .bf16⟩
  | .local _ .vmem, ⟨24, _⟩ => ⟨S1x256, .f32⟩
  | .local _ .vmem, ⟨25, _⟩ => ⟨S256x12, .bf16⟩
  | .local _ .vmem, ⟨26, _⟩ => ⟨S1x12, .f32⟩
  | .local _ .vmem, ⟨27, _⟩ => ⟨S512x103, .f32⟩
  | .local _ .vmem, ⟨28, _⟩ => ⟨S512x103, .f32⟩
  | .local _ .vmem, ⟨29, _⟩ => ⟨S512x119, .f32⟩
  | .local _ .vmem, ⟨30, _⟩ => ⟨S512x119, .f32⟩
  | .local _ .vmem, ⟨31, _⟩ => ⟨S512x12, .f32⟩
  | .local _ .vmem, ⟨32, _⟩ => ⟨S512x12, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg27_1 : Ref sig .tc := ⟨.vmem, 30, rfl⟩
abbrev cc0_stg28_0 : Ref sig .tc := ⟨.vmem, 31, rfl⟩
abbrev cc0_stg28_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem26_1 : DmaSem sig := 28
abbrev cc0_sem27_0 : DmaSem sig := 29
abbrev cc0_sem27_1 : DmaSem sig := 30
abbrev cc0_sem28_0 : DmaSem sig := 31
abbrev cc0_sem28_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x103 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x103 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x119 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x119 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x12 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x12 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x103 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x119 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x12 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  bitsLt_bf16_f32 : FTy.bits .bf16 < FTy.bits .f32
  shapeCasts_S1024_S1x1024 : S1024.ShapeCasts S1x1024
  shapeCasts_S256_S1x256 : S256.ShapeCasts S1x256
  shapeCasts_S103_S1x103 : S103.ShapeCasts S1x103
  shapeCasts_S119_S1x119 : S119.ShapeCasts S1x119
  shapeCasts_S12_S1x12 : S12.ShapeCasts S1x12
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x103_S256x103_0_0 : ∀ a, (![0, 0] : Fin 2 → Nat) a + S256x103.size a ≤ S256x103.size a
  h_S256x103 : 0 < S256x103.numel
  shapeCasts_S256x103_S256x103 : S256x103.ShapeCasts S256x103
  inb_S1x103_S1x103_0_0 : ∀ a, (![0, 0] : Fin 2 → Nat) a + S1x103.size a ≤ S1x103.size a
  h_S1x103 : 0 < S1x103.numel
  shapeCasts_S1x103_S1x103 : S1x103.ShapeCasts S1x103
  broadcasts_S1x103_S512x103 : S1x103.Broadcasts S512x103
  inb_S512x103_S512x103_0_0 : ∀ a, (![0, 0] : Fin 2 → Nat) a + S512x103.size a ≤ S512x103.size a
  h_S512x103 : 0 < S512x103.numel
  inb_S256x119_S256x119_0_0 : ∀ a, (![0, 0] : Fin 2 → Nat) a + S256x119.size a ≤ S256x119.size a
  h_S256x119 : 0 < S256x119.numel
  shapeCasts_S256x119_S256x119 : S256x119.ShapeCasts S256x119
  inb_S1x119_S1x119_0_0 : ∀ a, (![0, 0] : Fin 2 → Nat) a + S1x119.size a ≤ S1x119.size a
  h_S1x119 : 0 < S1x119.numel
  shapeCasts_S1x119_S1x119 : S1x119.ShapeCasts S1x119
  broadcasts_S1x119_S512x119 : S1x119.Broadcasts S512x119
  inb_S512x119_S512x119_0_0 : ∀ a, (![0, 0] : Fin 2 → Nat) a + S512x119.size a ≤ S512x119.size a
  h_S512x119 : 0 < S512x119.numel
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  dot_S512x256_S256x1024_S512x1024_1_0_0_1_n_n_wf : DotDims.WF S512x256 S256x1024 S512x1024 [1] [0] [0] [1] [] []
  dot_S512x256_S256x256_S512x256_1_0_0_1_n_n_wf : DotDims.WF S512x256 S256x256 S512x256 [1] [0] [0] [1] [] []
  dot_S512x256_S256x103_S512x103_1_0_0_1_n_n_wf : DotDims.WF S512x256 S256x103 S512x103 [1] [0] [0] [1] [] []
  dot_S512x256_S256x119_S512x119_1_0_0_1_n_n_wf : DotDims.WF S512x256 S256x119 S512x119 [1] [0] [0] [1] [] []
  dot_S512x256_S256x12_S512x12_1_0_0_1_n_n_wf : DotDims.WF S512x256 S256x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x103.size a ≤ S256x103.size a
  hwx0_16 : ∀ i : grid0.Coords, EltTy.bits .bf16 = 32 ∨ (Rect.block (s := S256x103) S256x103.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x103.size a ≤ S1x103.size a
  hwx0_17 : ∀ i : grid0.Coords, EltTy.bits .f32 = 32 ∨ (Rect.block (s := S1x103) S1x103.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x119.size a ≤ S256x119.size a
  hwx0_20 : ∀ i : grid0.Coords, EltTy.bits .bf16 = 32 ∨ (Rect.block (s := S256x119) S256x119.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x119.size a ≤ S1x119.size a
  hwx0_21 : ∀ i : grid0.Coords, EltTy.bits .f32 = 32 ∨ (Rect.block (s := S1x119) S1x119.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .bf16 = 32 ∨ (Rect.block (s := S256x256) S256x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x12.size a ≤ S256x12.size a
  hwx0_24 : ∀ i : grid0.Coords, EltTy.bits .bf16 = 32 ∨ (Rect.block (s := S256x12) S256x12.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x12.size a ≤ S1x12.size a
  hwx0_25 : ∀ i : grid0.Coords, EltTy.bits .f32 = 32 ∨ (Rect.block (s := S1x12) S1x12.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x103.size a ≤ S65536x103.size a
  hwx0_26 : ∀ i : grid0.Coords, EltTy.bits .f32 = 32 ∨ (Rect.block (s := S65536x103) S512x103.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S512x119.size a ≤ S65536x119.size a
  hwx0_27 : ∀ i : grid0.Coords, EltTy.bits .f32 = 32 ∨ (Rect.block (s := S65536x119) S512x119.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S512x12.size a ≤ S65536x12.size a
  hwx0_28 : ∀ i : grid0.Coords, EltTy.bits .f32 = 32 ∨ (Rect.block (s := S65536x12) S512x12.size (cc0_transform_28 i) (hinb0_28 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x103_S512x103_1_0_0_1_n_n : DotDims S512x256 S256x103 S512x103 where
  lhsContracting := [1]
  rhsContracting := [0]
  lhsNonContracting := [0]
  rhsNonContracting := [1]
  lhsBatch := []
  rhsBatch := []
  wf := dot_S512x256_S256x103_S512x103_1_0_0_1_n_n_wf
def dot_S512x256_S256x119_S512x119_1_0_0_1_n_n : DotDims S512x256 S256x119 S512x119 where
  lhsContracting := [1]
  rhsContracting := [0]
  lhsNonContracting := [0]
  rhsNonContracting := [1]
  lhsBatch := []
  rhsBatch := []
  wf := dot_S512x256_S256x119_S512x119_1_0_0_1_n_n_wf
def dot_S512x256_S256x12_S512x12_1_0_0_1_n_n : DotDims S512x256 S256x12 S512x12 where
  lhsContracting := [1]
  rhsContracting := [0]
  lhsNonContracting := [0]
  rhsNonContracting := [1]
  lhsBatch := []
  rhsBatch := []
  wf := dot_S512x256_S256x12_S512x12_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S256x103.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v22) S1x103.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v20) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12) S256x119.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v23) S1x119.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v10) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v21) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v13) S256x12.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v24) S1x12.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v25_0) S512x103.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v25_1) S512x119.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v25_2) S512x12.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x103 : Shape := ⟨2, ![256, 103]⟩
abbrev S103 : Shape := ⟨1, ![103]⟩
abbrev S256x119 : Shape := ⟨2, ![256, 119]⟩
abbrev S119 : Shape := ⟨1, ![119]⟩
abbrev S256x12 : Shape := ⟨2, ![256, 12]⟩
abbrev S12 : Shape := ⟨1, ![12]⟩
abbrev S_ : Shape := ⟨0, ![]⟩
abbrev S65536x1024 : Shape := ⟨2, ![65536, 1024]⟩
abbrev S1x1024 : Shape := ⟨2, ![1, 1024]⟩
abbrev S1x256 : Shape := ⟨2, ![1, 256]⟩
abbrev S65536x103 : Shape := ⟨2, ![65536, 103]⟩
abbrev S1x103 : Shape := ⟨2, ![1, 103]⟩
abbrev S65536x119 : Shape := ⟨2, ![65536, 119]⟩
abbrev S1x119 : Shape := ⟨2, ![1, 119]⟩
abbrev S65536x12 : Shape := ⟨2, ![65536, 12]⟩
abbrev S1x12 : Shape := ⟨2, ![1, 12]⟩

abbrev nBuf : Space → Nat
  | .hbm => 191
  | .vmem => 0
  | .smem => 0
  | _ => 0

abbrev hbmTy0_0 (i : Nat) : BufTy := match i % 128 with
  | 0 => ⟨S65536x256, .f32⟩
  | 1 => ⟨S256x1024, .f32⟩
  | 2 => ⟨S256x1024, .f32⟩
  | 3 => ⟨S1024, .f32⟩
  | 4 => ⟨S256x1024, .f32⟩
  | 5 => ⟨S256x1024, .f32⟩
  | 6 => ⟨S1024, .f32⟩
  | 7 => ⟨S256x1024, .f32⟩
  | 8 => ⟨S256x1024, .f32⟩
  | 9 => ⟨S1024, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x103, .f32⟩
  | 21 => ⟨S103, .f32⟩
  | 22 => ⟨S256x119, .f32⟩
  | 23 => ⟨S119, .f32⟩
  | 24 => ⟨S256x12, .f32⟩
  | 25 => ⟨S12, .f32⟩
  | 26 => ⟨S_, .f32⟩
  | 27 => ⟨S65536x256, .f32⟩
  | 28 => ⟨S65536x1024, .f32⟩
  | 29 => ⟨S65536x1024, .f32⟩
  | 30 => ⟨S65536x1024, .f32⟩
  | 31 => ⟨S1x1024, .f32⟩
  | 32 => ⟨S65536x1024, .f32⟩
  | 33 => ⟨S65536x1024, .f32⟩
  | 34 => ⟨S65536x256, .f32⟩
  | 35 => ⟨S65536x256, .f32⟩
  | 36 => ⟨S65536x256, .f32⟩
  | 37 => ⟨S65536x256, .f32⟩
  | 38 => ⟨S65536x256, .f32⟩
  | 39 => ⟨S65536x256, .f32⟩
  | 40 => ⟨S_, .f32⟩
  | 41 => ⟨S65536x256, .f32⟩
  | 42 => ⟨S65536x256, .f32⟩
  | 43 => ⟨S_, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S_, .f32⟩
  | 50 => ⟨S65536x256, .f32⟩
  | 51 => ⟨S65536x256, .f32⟩
  | 52 => ⟨S_, .f32⟩
  | 53 => ⟨S65536x256, .f32⟩
  | 54 => ⟨S65536x256, .f32⟩
  | 55 => ⟨S65536x256, .f32⟩
  | 56 => ⟨S65536x256, .f32⟩
  | 57 => ⟨S65536x256, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S_, .f32⟩
  | 64 => ⟨S65536x256, .f32⟩
  | 65 => ⟨S65536x256, .f32⟩
  | 66 => ⟨S65536x256, .f32⟩
  | 67 => ⟨S65536x256, .f32⟩
  | 68 => ⟨S65536x1024, .f32⟩
  | 69 => ⟨S65536x1024, .f32⟩
  | 70 => ⟨S65536x1024, .f32⟩
  | 71 => ⟨S1x1024, .f32⟩
  | 72 => ⟨S65536x1024, .f32⟩
  | 73 => ⟨S65536x1024, .f32⟩
  | 74 => ⟨S65536x256, .f32⟩
  | 75 => ⟨S65536x256, .f32⟩
  | 76 => ⟨S65536x256, .f32⟩
  | 77 => ⟨S65536x256, .f32⟩
  | 78 => ⟨S65536x256, .f32⟩
  | 79 => ⟨S65536x256, .f32⟩
  | 80 => ⟨S_, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S65536x256, .f32⟩
  | 87 => ⟨S65536x256, .f32⟩
  | 88 => ⟨S65536x256, .f32⟩
  | 89 => ⟨S_, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S65536x256, .f32⟩
  | 110 => ⟨S1x256, .f32⟩
  | 111 => ⟨S65536x256, .f32⟩
  | 112 => ⟨S65536x256, .f32⟩
  | 113 => ⟨S65536x256, .f32⟩
  | 114 => ⟨S65536x256, .f32⟩
  | 115 => ⟨S1x256, .f32⟩
  | 116 => ⟨S65536x256, .f32⟩
  | 117 => ⟨S65536x256, .f32⟩
  | 118 => ⟨S65536x1024, .f32⟩
  | 119 => ⟨S65536x1024, .f32⟩
  | 120 => ⟨S65536x1024, .f32⟩
  | 121 => ⟨S1x1024, .f32⟩
  | 122 => ⟨S65536x1024, .f32⟩
  | 123 => ⟨S65536x1024, .f32⟩
  | 124 => ⟨S65536x256, .f32⟩
  | 125 => ⟨S65536x256, .f32⟩
  | 126 => ⟨S65536x256, .f32⟩
  | 127 => ⟨S65536x256, .f32⟩
  | _ => ⟨S65536x256, .f32⟩

abbrev hbmTy0_1 (i : Nat) : BufTy := match i % 128 with
  | 0 => ⟨S65536x256, .f32⟩
  | 1 => ⟨S65536x256, .f32⟩
  | 2 => ⟨S_, .f32⟩
  | 3 => ⟨S65536x256, .f32⟩
  | 4 => ⟨S65536x256, .f32⟩
  | 5 => ⟨S_, .f32⟩
  | 6 => ⟨S65536x256, .f32⟩
  | 7 => ⟨S65536x256, .f32⟩
  | 8 => ⟨S65536x256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S65536x256, .f32⟩
  | 18 => ⟨S65536x256, .f32⟩
  | 19 => ⟨S65536x256, .f32⟩
  | 20 => ⟨S65536x256, .f32⟩
  | 21 => ⟨S65536x256, .f32⟩
  | 22 => ⟨S_, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S65536x256, .f32⟩
  | 29 => ⟨S65536x256, .f32⟩
  | 30 => ⟨S65536x256, .f32⟩
  | 31 => ⟨S1x256, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S65536x103, .f32⟩
  | 38 => ⟨S1x103, .f32⟩
  | 39 => ⟨S65536x103, .f32⟩
  | 40 => ⟨S65536x103, .f32⟩
  | 41 => ⟨S65536x256, .f32⟩
  | 42 => ⟨S1x256, .f32⟩
  | 43 => ⟨S65536x256, .f32⟩
  | 44 => ⟨S65536x256, .f32⟩
  | 45 => ⟨S_, .f32⟩
  | 46 => ⟨S65536x256, .f32⟩
  | 47 => ⟨S65536x256, .f32⟩
  | 48 => ⟨S65536x119, .f32⟩
  | 49 => ⟨S1x119, .f32⟩
  | 50 => ⟨S65536x119, .f32⟩
  | 51 => ⟨S65536x119, .f32⟩
  | 52 => ⟨S65536x256, .f32⟩
  | 53 => ⟨S1x256, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S65536x12, .f32⟩
  | 60 => ⟨S1x12, .f32⟩
  | 61 => ⟨S65536x12, .f32⟩
  | 62 => ⟨S65536x12, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_cst_7 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_cst_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_12 : Ref sig .tc := ⟨.hbm, 130, rfl⟩
abbrev main_v91 : Ref sig .tc := ⟨.hbm, 131, rfl⟩
abbrev main_v92 : Ref sig .tc := ⟨.hbm, 132, rfl⟩
abbrev main_cst_13 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_14 : Ref sig .tc := ⟨.hbm, 139, rfl⟩
abbrev main_v98 : Ref sig .tc := ⟨.hbm, 140, rfl⟩
abbrev main_v99 : Ref sig .tc := ⟨.hbm, 141, rfl⟩
abbrev main_cst_15 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_16 : Ref sig .tc := ⟨.hbm, 150, rfl⟩
abbrev main_v107 : Ref sig .tc := ⟨.hbm, 151, rfl⟩
abbrev main_v108 : Ref sig .tc := ⟨.hbm, 152, rfl⟩
abbrev main_cst_17 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call0_cst : Ref sig .tc := ⟨.hbm, 162, rfl⟩
abbrev main_call0_v0 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_call1_cst : Ref sig .tc := ⟨.hbm, 173, rfl⟩
abbrev main_call1_v0 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_call2_cst : Ref sig .tc := ⟨.hbm, 184, rfl⟩
abbrev main_call2_v0 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S103_S1x103_1 : S103.BroadcastsInDim S1x103 (![1] : Fin 1 → Fin S1x103.rank)
  bcast_S1x103_S65536x103_0_1 : S1x103.BroadcastsInDim S65536x103 (![0, 1] : Fin 2 → Fin S65536x103.rank)
  bcast_S119_S1x119_1 : S119.BroadcastsInDim S1x119 (![1] : Fin 1 → Fin S1x119.rank)
  bcast_S1x119_S65536x119_0_1 : S1x119.BroadcastsInDim S65536x119 (![0, 1] : Fin 2 → Fin S65536x119.rank)
  bcast_S12_S1x12_1 : S12.BroadcastsInDim S1x12 (![1] : Fin 1 → Fin S1x12.rank)
  bcast_S1x12_S65536x12_0_1 : S1x12.BroadcastsInDim S65536x12 (![0, 1] : Fin 2 → Fin S65536x12.rank)
  dot_S65536x256_S256x1024_S65536x1024_1_0_0_1_n_n_wf : DotDims.WF S65536x256 S256x1024 S65536x1024 [1] [0] [0] [1] [] []
  dot_S65536x256_S256x256_S65536x256_1_0_0_1_n_n_wf : DotDims.WF S65536x256 S256x256 S65536x256 [1] [0] [0] [1] [] []
  dot_S65536x256_S256x103_S65536x103_1_0_0_1_n_n_wf : DotDims.WF S65536x256 S256x103 S65536x103 [1] [0] [0] [1] [] []
  dot_S65536x256_S256x119_S65536x119_1_0_0_1_n_n_wf : DotDims.WF S65536x256 S256x119 S65536x119 [1] [0] [0] [1] [] []
  dot_S65536x256_S256x12_S65536x12_1_0_0_1_n_n_wf : DotDims.WF S65536x256 S256x12 S65536x12 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x103_S65536x103_1_0_0_1_n_n : DotDims S65536x256 S256x103 S65536x103 where
  lhsContracting := [1]
  rhsContracting := [0]
  lhsNonContracting := [0]
  rhsNonContracting := [1]
  lhsBatch := []
  rhsBatch := []
  wf := dot_S65536x256_S256x103_S65536x103_1_0_0_1_n_n_wf
def dot_S65536x256_S256x119_S65536x119_1_0_0_1_n_n : DotDims S65536x256 S256x119 S65536x119 where
  lhsContracting := [1]
  rhsContracting := [0]
  lhsNonContracting := [0]
  rhsNonContracting := [1]
  lhsBatch := []
  rhsBatch := []
  wf := dot_S65536x256_S256x119_S65536x119_1_0_0_1_n_n_wf
def dot_S65536x256_S256x12_S65536x12_1_0_0_1_n_n : DotDims S65536x256 S256x12 S65536x12 where
  lhsContracting := [1]
  rhsContracting := [0]
  lhsNonContracting := [0]
  rhsNonContracting := [1]
  lhsBatch := []
  rhsBatch := []
  wf := dot_S65536x256_S256x12_S65536x12_1_0_0_1_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«176691_j9079560863839_1_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.Spec.lean ====
/-
  The three-task recurrent classifier, one input row at a time, on the extended reals.

  Every result row depends on ONE row `x` of the input matrix and on the weights only, so the whole computation is
  written here for a single row `x : Fin 256 → EReal`, over weights given as plain functions of their coordinates.

  * `lin u W j = ∑ₖ u k * W k j`: a row times a matrix;
  * `pre1`, `pre2`: a gate pre-activation row, `x·Wk + b` and `(x·Wk + h·Wr) + b` (1024 lanes: the four gates
    `i, f, g, o` side by side, 256 lanes each — `gI`, `gF`, `gG`, `gO` pick a gate's lane);
  * `cellc`: the new cell state `σ(f)·c + σ(i)·tanh(g)`; `cellc0`: the same from the zero cell state, `σ(i)·tanh(g)`;
    `cellh`: the new hidden state `σ(o)·tanh(c')` (`σ` the logistic function, `1 / (1 + e⁻ᵗ)`);
  * `prop`: the state handed from task 2 to task 3, `(a + h·W) + b`;
  * `head`: a task's classifier, `relu(h·Wm + bm)·Wo + bo`.

  `Params` bundles the weights, and `Params.out1 / out2 / out3` are the three result rows: task 1 runs its cell from the
  zero state, task 2 from task 1's state, task 3 from task 1's state plus a dense image of task 2's.
  Two small laws say what a zero state contributes: a zero hidden state adds nothing to a pre-activation
  (`pre2_zero`), and a zero cell state nothing to the new cell state (`cellc_zero`): `0 * w = 0` and `s * 0 = 0` hold
  for every extended real, the infinities included.
-/
import Idealize.ShloMosaic.PureOps.Ideal
import Idealize.ShloMosaic.Lib.ValueIdx

noncomputable section

open scoped BigOperators

namespace Cert.Spec

open Idealize.ShloMosaic Idealize.ShloMosaic.ValueIdx

/-! ## Arrays as functions of their coordinates -/

/-- Row `p` of a matrix. -/
def row {R K : Nat} (X : (⟨2, ![R, K]⟩ : Shape).Idx → EReal) (p : Fin R) : Fin K → EReal := fun k => X (ix2 p k)
/-- A matrix as a function of its two coordinates. -/
def mat {K N : Nat} (W : (⟨2, ![K, N]⟩ : Shape).Idx → EReal) : Fin K → Fin N → EReal := fun k j => W (ix2 k j)
/-- The one row of a `1 × N` matrix. -/
def rowvec {N : Nat} (b : (⟨2, ![1, N]⟩ : Shape).Idx → EReal) : Fin N → EReal := fun j => b (ix2 (0 : Fin 1) j)
/-- A vector as a function of its coordinate. -/
def vec1 {N : Nat} (b : (⟨1, ![N]⟩ : Shape).Idx → EReal) : Fin N → EReal := fun j => b (ix1 j)

/-! ## The layers -/

/-- A row times a matrix. -/
def lin {K N : Nat} (u : Fin K → EReal) (W : Fin K → Fin N → EReal) (j : Fin N) : EReal := ∑ k : Fin K, u k * W k j

/-- `x·Wk + b`. -/
def pre1 {K N : Nat} (x : Fin K → EReal) (Wk : Fin K → Fin N → EReal) (b : Fin N → EReal) (j : Fin N) : EReal :=
  lin x Wk j + b j

/-- `(x·Wk + h·Wr) + b`. -/
def pre2 {K H N : Nat} (x : Fin K → EReal) (h : Fin H → EReal) (Wk : Fin K → Fin N → EReal) (Wr : Fin H → Fin N → EReal)
    (b : Fin N → EReal) (j : Fin N) : EReal :=
  (lin x Wk j + lin h Wr j) + b j

/-- The lanes of the four gates inside a 1024-lane pre-activation. -/
def gI (j : Fin 256) : Fin 1024 := ⟨j.val, by have := j.isLt; omega⟩
def gF (j : Fin 256) : Fin 1024 := ⟨256 + j.val, by have := j.isLt; omega⟩
def gG (j : Fin 256) : Fin 1024 := ⟨512 + j.val, by have := j.isLt; omega⟩
def gO (j : Fin 256) : Fin 1024 := ⟨768 + j.val, by have := j.isLt; omega⟩

/-- The new cell state from the zero cell state: `σ(i)·tanh(g)`. -/
def cellc0 (z : Fin 1024 → EReal) (j : Fin 256) : EReal := Ideal.logistic (z (gI j)) * Ideal.tanh (z (gG j))

/-- The new cell state: `σ(f)·c + σ(i)·tanh(g)`. -/
def cellc (z : Fin 1024 → EReal) (c : Fin 256 → EReal) (j : Fin 256) : EReal :=
  Ideal.logistic (z (gF j)) * c j + Ideal.logistic (z (gI j)) * Ideal.tanh (z (gG j))

/-- The new hidden state: `σ(o)·tanh(c')`. -/
def cellh (z : Fin 1024 → EReal) (c : Fin 256 → EReal) (j : Fin 256) : EReal :=
  Ideal.logistic (z (gO j)) * Ideal.tanh (c j)

/-- A state handed on through a dense layer: `(a + h·W) + b`. -/
def prop {H N : Nat} (a : Fin N → EReal) (h : Fin H → EReal) (W : Fin H → Fin N → EReal) (b : Fin N → EReal)
    (j : Fin N) : EReal :=
  (a j + lin h W j) + b j

/-- A task's classifier: `relu(h·Wm + bm)·Wo + bo`. -/
def head {H M N : Nat} (h : Fin H → EReal) (Wm : Fin H → Fin M → EReal) (bm : Fin M → EReal)
    (Wo : Fin M → Fin N → EReal) (bo : Fin N → EReal) : Fin N → EReal :=
  pre1 (fun k => max (pre1 h Wm bm k) 0) Wo bo

/-! ## What a zero state contributes -/

/-- A zero row times any matrix is zero, infinite entries included. -/
theorem lin_zero {K N : Nat} (W : Fin K → Fin N → EReal) (j : Fin N) : lin (fun _ : Fin K => (0 : EReal)) W j = 0 := by
  unfold lin
  exact Finset.sum_eq_zero fun k _ => zero_mul _

/-- With a zero hidden state the recurrent product drops out of the pre-activation. -/
theorem pre2_zero {K H N : Nat} (x : Fin K → EReal) (Wk : Fin K → Fin N → EReal) (Wr : Fin H → Fin N → EReal)
    (b : Fin N → EReal) : pre2 x (fun _ : Fin H => (0 : EReal)) Wk Wr b = pre1 x Wk b := by
  funext j
  unfold pre2 pre1
  rw [lin_zero, add_zero]

/-- With a zero cell state the forget gate's term drops out of the new cell state. -/
theorem cellc_zero (z : Fin 1024 → EReal) : cellc z (fun _ => (0 : EReal)) = cellc0 z := by
  funext j
  unfold cellc cellc0
  rw [mul_zero, zero_add]

/-! ## The whole network on one row -/

/-- The weights, each as a function of its coordinates. -/
structure Params where
  Wk1 : Fin 256 → Fin 1024 → EReal
  b1 : Fin 1024 → EReal
  Wk2 : Fin 256 → Fin 1024 → EReal
  Wr2 : Fin 256 → Fin 1024 → EReal
  b2 : Fin 1024 → EReal
  Wk3 : Fin 256 → Fin 1024 → EReal
  Wr3 : Fin 256 → Fin 1024 → EReal
  b3 : Fin 1024 → EReal
  Wh23 : Fin 256 → Fin 256 → EReal
  bh23 : Fin 256 → EReal
  Wc23 : Fin 256 → Fin 256 → EReal
  bc23 : Fin 256 → EReal
  Wm1 : Fin 256 → Fin 256 → EReal
  bm1 : Fin 256 → EReal
  Wo1 : Fin 256 → Fin 103 → EReal
  bo1 : Fin 103 → EReal
  Wm2 : Fin 256 → Fin 256 → EReal
  bm2 : Fin 256 → EReal
  Wo2 : Fin 256 → Fin 119 → EReal
  bo2 : Fin 119 → EReal
  Wm3 : Fin 256 → Fin 256 → EReal
  bm3 : Fin 256 → EReal
  Wo3 : Fin 256 → Fin 12 → EReal
  bo3 : Fin 12 → EReal

namespace Params

variable (P : Params) (x : Fin 256 → EReal)

/-- Task 1: the cell from the zero state. -/
def z1 : Fin 1024 → EReal := pre1 x P.Wk1 P.b1
def c1 : Fin 256 → EReal := cellc0 (P.z1 x)
def h1 : Fin 256 → EReal := cellh (P.z1 x) (P.c1 x)
/-- Task 2: the cell from task 1's state. -/
def z2 : Fin 1024 → EReal := pre2 x (P.h1 x) P.Wk2 P.Wr2 P.b2
def c2 : Fin 256 → EReal := cellc (P.z2 x) (P.c1 x)
def h2 : Fin 256 → EReal := cellh (P.z2 x) (P.c2 x)
/-- Task 3: the cell from task 1's state plus a dense image of task 2's. -/
def h3in : Fin 256 → EReal := prop (P.h1 x) (P.h2 x) P.Wh23 P.bh23
def c3in : Fin 256 → EReal := prop (P.c1 x) (P.c2 x) P.Wc23 P.bc23
def z3 : Fin 1024 → EReal := pre2 x (P.h3in x) P.Wk3 P.Wr3 P.b3
def c3 : Fin 256 → EReal := cellc (P.z3 x) (P.c3in x)
def h3 : Fin 256 → EReal := cellh (P.z3 x) (P.c3 x)
/-- The three result rows. -/
def out1 : Fin 103 → EReal := head (P.h1 x) P.Wm1 P.bm1 P.Wo1 P.bo1
def out2 : Fin 119 → EReal := head (P.h2 x) P.Wm2 P.bm2 P.Wo2 P.bo2
def out3 : Fin 12 → EReal := head (P.h3 x) P.Wm3 P.bm3 P.Wo3 P.bo3

end Params

/-! ## The weights as arrays, and the three result arrays -/

/-- The weights read off the argument arrays: a matrix at its two coordinates, a bias vector at its lane. -/
def arrayParams
    (Wk1 : (⟨2, ![256, 1024]⟩ : Shape).Idx → EReal) (b1 : (⟨1, ![1024]⟩ : Shape).Idx → EReal)
    (Wk2 Wr2 : (⟨2, ![256, 1024]⟩ : Shape).Idx → EReal) (b2 : (⟨1, ![1024]⟩ : Shape).Idx → EReal)
    (Wk3 Wr3 : (⟨2, ![256, 1024]⟩ : Shape).Idx → EReal) (b3 : (⟨1, ![1024]⟩ : Shape).Idx → EReal)
    (Wh23 : (⟨2, ![256, 256]⟩ : Shape).Idx → EReal) (bh23 : (⟨1, ![256]⟩ : Shape).Idx → EReal)
    (Wc23 : (⟨2, ![256, 256]⟩ : Shape).Idx → EReal) (bc23 : (⟨1, ![256]⟩ : Shape).Idx → EReal)
    (Wm1 : (⟨2, ![256, 256]⟩ : Shape).Idx → EReal) (bm1 : (⟨1, ![256]⟩ : Shape).Idx → EReal)
    (Wm2 : (⟨2, ![256, 256]⟩ : Shape).Idx → EReal) (bm2 : (⟨1, ![256]⟩ : Shape).Idx → EReal)
    (Wm3 : (⟨2, ![256, 256]⟩ : Shape).Idx → EReal) (bm3 : (⟨1, ![256]⟩ : Shape).Idx → EReal)
    (Wo1 : (⟨2, ![256, 103]⟩ : Shape).Idx → EReal) (bo1 : (⟨1, ![103]⟩ : Shape).Idx → EReal)
    (Wo2 : (⟨2, ![256, 119]⟩ : Shape).Idx → EReal) (bo2 : (⟨1, ![119]⟩ : Shape).Idx → EReal)
    (Wo3 : (⟨2, ![256, 12]⟩ : Shape).Idx → EReal) (bo3 : (⟨1, ![12]⟩ : Shape).Idx → EReal) : Params where
  Wk1 := mat Wk1
  b1 := vec1 b1
  Wk2 := mat Wk2
  Wr2 := mat Wr2
  b2 := vec1 b2
  Wk3 := mat Wk3
  Wr3 := mat Wr3
  b3 := vec1 b3
  Wh23 := mat Wh23
  bh23 := vec1 bh23
  Wc23 := mat Wc23
  bc23 := vec1 bc23
  Wm1 := mat Wm1
  bm1 := vec1 bm1
  Wo1 := mat Wo1
  bo1 := vec1 bo1
  Wm2 := mat Wm2
  bm2 := vec1 bm2
  Wo2 := mat Wo2
  bo2 := vec1 bo2
  Wm3 := mat Wm3
  bm3 := vec1 bm3
  Wo3 := mat Wo3
  bo3 := vec1 bo3

/-- The three result arrays: row `r` of each is the network on row `r` of the input matrix `X`. -/
def G1 (X : (⟨2, ![65536, 256]⟩ : Shape).Idx → EReal) (P : Params) : (⟨2, ![65536, 103]⟩ : Shape).Idx → EReal :=
  fun i => P.out1 (row X (i 0)) (i 1)
def G2 (X : (⟨2, ![65536, 256]⟩ : Shape).Idx → EReal) (P : Params) : (⟨2, ![65536, 119]⟩ : Shape).Idx → EReal :=
  fun i => P.out2 (row X (i 0)) (i 1)
def G3 (X : (⟨2, ![65536, 256]⟩ : Shape).Idx → EReal) (P : Params) : (⟨2, ![65536, 12]⟩ : Shape).Idx → EReal :=
  fun i => P.out3 (row X (i 0)) (i 1)

end Cert.Spec

end
-- ==== Proof.LibRowLayers.lean ====
/-
  Dense layers and gated-cell steps read ROW BY ROW, at the ideal values, for a kernel's vector operations and for the
  host's — generic in the number of rows `R` and in the layers' widths.

  Every operation here acts on a matrix one row at a time: row `p` of the result is a function of row `p` of each
  matrix operand (and of whole weight matrices). `Spec.row A p` is row `p` of `A` as a function of the lane.

  * products: a kernel's `tpu.matmul` into a zero accumulator and the host's `dot_general`, `[R, K] × [K, N]`, have row
    `p` equal to `lin (row L p) (mat W)`, the row times the matrix (`matmul_row`, `dot_row`);
  * biases: a `[1, N]` row spread over `R` rows (kernel) and a length-`N` vector laid as a row and spread (host) have
    every row equal to the bias (`bias_row`, `hbias_row`); a rank-0 constant spread over a matrix has every row constant
    (`splat_row`); a scalar splat likewise (`bsplat_row`);
  * pointwise operations act lane by lane (`row_addf`, `row_mulf`, `row_maximumf`, `row_truncf`);
  * the gated cell: with the four gates `i, f, g, o` in lanes `[0,256) … [768,1024)` of a pre-activation `Z`,
    `σ(f)·C + σ(i)·tanh(g)`, `σ(i)·tanh(g)` and `σ(o)·tanh(C)` have row `p` equal to `cellc`, `cellc0`, `cellh` of the rows
    (`kcellc_row`, `kcellc0_row`, `kcellh_row` for a kernel's `tpu.logistic` / `math.tanh`; `hcellc_row`, `hcellh_row`
    for the host, where the logistic function is spelt `1 / (1 + exp (-t))` with the constant `1.0`: at the ideal values
    that expression IS the logistic function, `hsig_apply`).
-/
import Idealize.ShloMosaic.Lib.Pipeline.Value
import Idealize.ShloMosaic.Lib.ValueIdx
import Idealize.ShloMosaic.Lib.ValueLayout
import Idealize.ShloMosaic.PureOps.Ideal.Laws
import proofs.«176691_j9079560863839_1_alg».proof.Proof.LibBlock
import proofs.«176691_j9079560863839_1_alg».proof.Proof.LibHostProduct
import proofs.«176691_j9079560863839_1_alg».proof.Proof.Spec

noncomputable section

open scoped BigOperators

namespace Cert.LibRowLayers

open Idealize.ShloMosaic Idealize.ShloMosaic.ValueIdx Cert.Spec

/-- A plain product `[M, K] × [K, N]`: the left operand's columns contracted with the right operand's rows, no batch. -/
structure Plain {M K N : Nat} (D : DotDims ⟨2, ![M, K]⟩ ⟨2, ![K, N]⟩ ⟨2, ![M, N]⟩) : Prop where
  lc : D.lhsContracting = [1]
  rc : D.rhsContracting = [0]
  lb : D.lhsBatch = []
  ln : D.lhsNonContracting = [0]
  rb : D.rhsBatch = []
  rn : D.rhsNonContracting = [1]

/-! ## Pointwise operations, lane by lane -/

section Pointwise
variable {R N : Nat} {φ : FTy}

theorem row_addf (A B : FVec Ideal ⟨2, ![R, N]⟩ φ) (p : Fin R) :
    row (addf A B) p = fun j => row A p j + row B p j := rfl

theorem row_mulf (A B : FVec Ideal ⟨2, ![R, N]⟩ φ) (p : Fin R) :
    row (mulf A B) p = fun j => row A p j * row B p j := rfl

theorem row_maximumf (A B : FVec Ideal ⟨2, ![R, N]⟩ φ) (p : Fin R) :
    row (maximumf A B) p = fun j => max (row A p j) (row B p j) := rfl

theorem row_truncf {ψ : FTy} (A : FVec Ideal ⟨2, ![R, N]⟩ φ) (h : ψ.bits < φ.bits) (p : Fin R) :
    row (truncf ψ A h : FVec Ideal ⟨2, ![R, N]⟩ ψ) p = row A p := rfl

/-- A scalar splat has every row constant. -/
theorem bsplat_row (w : BitVec 32) (p : Fin R) :
    row (broadcast ⟨2, ![R, N]⟩ (Scalar.ofBits (F := Ideal) .f32 w)) p = fun _ => Ideal.ofBits .f32 w := rfl

end Pointwise

/-! ## Products and biases -/

section Products
variable {M K N : Nat} (D : DotDims ⟨2, ![M, K]⟩ ⟨2, ![K, N]⟩ ⟨2, ![M, N]⟩)

/-- Row `p` of a kernel's product into the zero accumulator is the row times the matrix. -/
theorem matmul_row (hD : Plain D) {φ₁ φ₂ : FTy} (prec : Option ContractPrecision)
    (L : FVec Ideal ⟨2, ![M, K]⟩ φ₁) (W : FVec Ideal ⟨2, ![K, N]⟩ φ₂)
    (hW : (⟨2, ![K, N]⟩ : Shape).ShapeCasts ⟨2, ![K, N]⟩) (p : Fin M) :
    row (FloatOps.matmul D prec L (shapeCast ⟨2, ![K, N]⟩ W hW) (constant (F := Ideal) ⟨2, ![M, N]⟩ .f32 0x00000000#32)) p
      = lin (row L p) (mat W) := by
  funext q
  rw [shapeCast_self]
  exact LibBlock.matmul_zero_ix2 D hD.lc hD.rc hD.lb hD.ln hD.rb hD.rn prec L W p q

/-- Row `p` of the host's product is the row times the matrix. -/
theorem dot_row (hD : Plain D) {φ₁ φ₂ : FTy} (prec : Option ContractPrecision)
    (L : FVec Ideal ⟨2, ![M, K]⟩ φ₁) (W : FVec Ideal ⟨2, ![K, N]⟩ φ₂) (p : Fin M) :
    row (Host.dotGeneral D prec L W) p = lin (row L p) (mat W) := by
  funext q
  exact LibHostProduct.dotGeneral_ix2 D hD.lc hD.rc hD.lb hD.ln hD.rb hD.rn prec L W p q

end Products

section Biases
variable {R N : Nat}

/-- A `[1, N]` row spread over `R` rows: every row is that row. -/
theorem bias_row (b : FVec Ideal ⟨2, ![1, N]⟩ .f32) (hb : (⟨2, ![1, N]⟩ : Shape).ShapeCasts ⟨2, ![1, N]⟩)
    (hbb : (⟨2, ![1, N]⟩ : Shape).Broadcasts ⟨2, ![R, N]⟩) (p : Fin R) :
    row (broadcastTo ⟨2, ![R, N]⟩ (shapeCast ⟨2, ![1, N]⟩ b hb) hbb) p = rowvec b := by
  funext q
  rw [shapeCast_self]
  exact broadcastTo_1b_ab_apply b hbb p q

/-- A length-`N` vector laid as a row and spread over `R` rows: every row is the vector. -/
theorem hbias_row (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) :
    row (broadcastInDim ⟨2, ![R, N]⟩ ![0, 1] h2 (broadcastInDim ⟨2, ![1, N]⟩ ![1] h1 b)) p = vec1 b := by
  funext q
  exact LibHostProduct.bias_row_apply b h1 h2 p q

/-- A rank-0 constant spread over a matrix: every row is constant. -/
theorem splat_row (w : BitVec 32)
    (h : (⟨0, ![]⟩ : Shape).BroadcastsInDim ⟨2, ![R, N]⟩ (![] : Fin 0 → Fin 2)) (p : Fin R) :
    row (broadcastInDim ⟨2, ![R, N]⟩ ![] h (constant (F := Ideal) ⟨0, ![]⟩ .f32 w)) p = fun _ => Ideal.ofBits .f32 w := by
  funext q
  exact LibHostProduct.splat_apply _ h (ix2 p q)

end Biases

/-! ## The logistic function as the host spells it -/

/-- The word `0x3F800000` is the real number one. -/
theorem ofBits_one_f32 : Ideal.ofBits .f32 0x3F800000#32 = 1 := by
  simp [Ideal.ofBits, Ideal.ieee, -EReal.coe_mul]; norm_num

/-- `1 / (1 + exp (-t))`, in the host's operations, is the logistic function on every extended real. -/
theorem hsig_eq (t : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) t)))
      = Ideal.logistic t := by
  rw [ofBits_one_f32]
  rfl

/-! ## The gated cell -/

section Cell
variable {R : Nat}

/-- `σ(i)·tanh(g)`, kernel operations. -/
theorem kcellc0_row (Z : FVec Ideal ⟨2, ![R, 1024]⟩ .f32)
    (hI : (⟨2, ![R, 1024]⟩ : Shape).Slices ![0, 0] ⟨2, ![R, 256]⟩)
    (hG : (⟨2, ![R, 1024]⟩ : Shape).Slices ![0, 512] ⟨2, ![R, 256]⟩) (p : Fin R) :
    row (mulf (logistic (extractStridedSlice ⟨2, ![R, 256]⟩ ![0, 0] Z hI))
          (tanh (extractStridedSlice ⟨2, ![R, 256]⟩ ![0, 512] Z hG))) p = cellc0 (row Z p) := by
  funext j
  show Ideal.logistic (extractStridedSlice ⟨2, ![R, 256]⟩ ![0, 0] Z hI (ix2 p j))
      * Ideal.tanh (extractStridedSlice ⟨2, ![R, 256]⟩ ![0, 512] Z hG (ix2 p j)) = _
  rw [slice2_axis1_apply 0 Z hI p j (gI j) (Nat.zero_add _).symm, slice2_axis1_apply 512 Z hG p j (gG j) rfl]
  rfl

/-- `σ(f)·C + σ(i)·tanh(g)`, kernel operations. -/
theorem kcellc_row (Z : FVec Ideal ⟨2, ![R, 1024]⟩ .f32) (C : FVec Ideal ⟨2, ![R, 256]⟩ .f32)
    (hF : (⟨2, ![R, 1024]⟩ : Shape).Slices ![0, 256] ⟨2, ![R, 256]⟩)
    (hI : (⟨2, ![R, 1024]⟩ : Shape).Slices ![0, 0] ⟨2, ![R, 256]⟩)
    (hG : (⟨2, ![R, 1024]⟩ : Shape).Slices ![0, 512] ⟨2, ![R, 256]⟩) (p : Fin R) :
    row (addf (mulf (logistic (extractStridedSlice ⟨2, ![R, 256]⟩ ![0, 256] Z hF)) C)
          (mulf (logistic (extractStridedSlice ⟨2, ![R, 256]⟩ ![0, 0] Z hI))
            (tanh (extractStridedSlice ⟨2, ![R, 256]⟩ ![0, 512] Z hG)))) p = cellc (row Z p) (row C p) := by
  funext j
  show Ideal.logistic (extractStridedSlice ⟨2, ![R, 256]⟩ ![0, 256] Z hF (ix2 p j)) * C (ix2 p j)
      + Ideal.logistic (extractStridedSlice ⟨2, ![R, 256]⟩ ![0, 0] Z hI (ix2 p j))
        * Ideal.tanh (extractStridedSlice ⟨2, ![R, 256]⟩ ![0, 512] Z hG (ix2 p j)) = _
  rw [slice2_axis1_apply 256 Z hF p j (gF j) rfl, slice2_axis1_apply 0 Z hI p j (gI j) (Nat.zero_add _).symm,
    slice2_axis1_apply 512 Z hG p j (gG j) rfl]
  rfl

/-- `σ(o)·tanh(C)`, kernel operations. -/
theorem kcellh_row (Z : FVec Ideal ⟨2, ![R, 1024]⟩ .f32) (C : FVec Ideal ⟨2, ![R, 256]⟩ .f32)
    (hO : (⟨2, ![R, 1024]⟩ : Shape).Slices ![0, 768] ⟨2, ![R, 256]⟩) (p : Fin R) :
    row (mulf (logistic (extractStridedSlice ⟨2, ![R, 256]⟩ ![0, 768] Z hO)) (tanh C)) p = cellh (row Z p) (row C p) := by
  funext j
  show Ideal.logistic (extractStridedSlice ⟨2, ![R, 256]⟩ ![0, 768] Z hO (ix2 p j)) * Ideal.tanh (C (ix2 p j)) = _
  rw [slice2_axis1_apply 768 Z hO p j (gO j) rfl]
  rfl

/-- The host's logistic expression of a lane slice of `Z`, read at `(p, j)`, is `σ` of `Z` at `(p, k)`, `k = o + j`. -/
theorem hsig_slice_apply (o : Nat) (Z : FVec Ideal ⟨2, ![R, 1024]⟩ .f32)
    (h : (⟨2, ![R, 1024]⟩ : Shape).Slices ![0, o] ⟨2, ![R, 256]⟩)
    (hs hs' : (⟨0, ![]⟩ : Shape).BroadcastsInDim ⟨2, ![R, 256]⟩ (![] : Fin 0 → Fin 2))
    (p : Fin R) (j : Fin 256) (k : Fin 1024) (hk : k.val = o + j.val) :
    Host.divf (broadcastInDim ⟨2, ![R, 256]⟩ ![] hs (constant (F := Ideal) ⟨0, ![]⟩ .f32 0x3F800000#32))
        (addf (broadcastInDim ⟨2, ![R, 256]⟩ ![] hs' (constant (F := Ideal) ⟨0, ![]⟩ .f32 0x3F800000#32))
          (Host.exp (Host.negf (extractStridedSlice ⟨2, ![R, 256]⟩ ![0, o] Z h)))) (ix2 p j)
      = Ideal.logistic (Z (ix2 p k)) := by
  show FloatOps.hostDivf (F := Ideal) (φ := .f32)
      (broadcastInDim ⟨2, ![R, 256]⟩ ![] hs (constant (F := Ideal) ⟨0, ![]⟩ .f32 0x3F800000#32) (ix2 p j))
      (FloatOps.addf (F := Ideal) (φ := .f32)
        (broadcastInDim ⟨2, ![R, 256]⟩ ![] hs' (constant (F := Ideal) ⟨0, ![]⟩ .f32 0x3F800000#32) (ix2 p j))
        (FloatOps.hostUnary (F := Ideal) (φ := .f32) .exp (FloatOps.hostNegf (F := Ideal) (φ := .f32)
          (extractStridedSlice ⟨2, ![R, 256]⟩ ![0, o] Z h (ix2 p j))))) = _
  simp only [LibHostProduct.splat_apply]
  rw [slice2_axis1_apply o Z h p j k hk]
  exact hsig_eq _

/-- `σ(f)·C + σ(i)·tanh(g)`, host operations. -/
theorem hcellc_row (Z : FVec Ideal ⟨2, ![R, 1024]⟩ .f32) (C : FVec Ideal ⟨2, ![R, 256]⟩ .f32)
    (hF : (⟨2, ![R, 1024]⟩ : Shape).Slices ![0, 256] ⟨2, ![R, 256]⟩)
    (hI : (⟨2, ![R, 1024]⟩ : Shape).Slices ![0, 0] ⟨2, ![R, 256]⟩)
    (hG : (⟨2, ![R, 1024]⟩ : Shape).Slices ![0, 512] ⟨2, ![R, 256]⟩)
    (s1 s2 s3 s4 : (⟨0, ![]⟩ : Shape).BroadcastsInDim ⟨2, ![R, 256]⟩ (![] : Fin 0 → Fin 2)) (p : Fin R) :
    row (addf
          (mulf (Host.divf (broadcastInDim ⟨2, ![R, 256]⟩ ![] s1 (constant (F := Ideal) ⟨0, ![]⟩ .f32 0x3F800000#32))
                  (addf (broadcastInDim ⟨2, ![R, 256]⟩ ![] s2 (constant (F := Ideal) ⟨0, ![]⟩ .f32 0x3F800000#32))
                    (Host.exp (Host.negf (extractStridedSlice ⟨2, ![R, 256]⟩ ![0, 256] Z hF))))) C)
          (mulf (Host.divf (broadcastInDim ⟨2, ![R, 256]⟩ ![] s3 (constant (F := Ideal) ⟨0, ![]⟩ .f32 0x3F800000#32))
                  (addf (broadcastInDim ⟨2, ![R, 256]⟩ ![] s4 (constant (F := Ideal) ⟨0, ![]⟩ .f32 0x3F800000#32))
                    (Host.exp (Host.negf (extractStridedSlice ⟨2, ![R, 256]⟩ ![0, 0] Z hI)))))
            (Host.tanh (extractStridedSlice ⟨2, ![R, 256]⟩ ![0, 512] Z hG)))) p
      = cellc (row Z p) (row C p) := by
  funext j
  have eF := hsig_slice_apply 256 Z hF s1 s2 p j (gF j) rfl
  have eI := hsig_slice_apply 0 Z hI s3 s4 p j (gI j) (Nat.zero_add _).symm
  have eG := slice2_axis1_apply 512 Z hG p j (gG j) rfl
  unfold cellc row
  rw [← eF, ← eI, ← eG]
  rfl

/-- `σ(o)·tanh(C)`, host operations. -/
theorem hcellh_row (Z : FVec Ideal ⟨2, ![R, 1024]⟩ .f32) (C : FVec Ideal ⟨2, ![R, 256]⟩ .f32)
    (hO : (⟨2, ![R, 1024]⟩ : Shape).Slices ![0, 768] ⟨2, ![R, 256]⟩)
    (s1 s2 : (⟨0, ![]⟩ : Shape).BroadcastsInDim ⟨2, ![R, 256]⟩ (![] : Fin 0 → Fin 2)) (p : Fin R) :
    row (mulf (Host.divf (broadcastInDim ⟨2, ![R, 256]⟩ ![] s1 (constant (F := Ideal) ⟨0, ![]⟩ .f32 0x3F800000#32))
                (addf (broadcastInDim ⟨2, ![R, 256]⟩ ![] s2 (constant (F := Ideal) ⟨0, ![]⟩ .f32 0x3F800000#32))
                  (Host.exp (Host.negf (extractStridedSlice ⟨2, ![R, 256]⟩ ![0, 768] Z hO)))))
          (Host.tanh C)) p
      = cellh (row Z p) (row C p) := by
  funext j
  have eO := hsig_slice_apply 768 Z hO s1 s2 p j (gO j) rfl
  unfold cellh row
  rw [← eO]
  rfl

end Cell

/-! ## Dense layers, kernel operations -/

section KernelLayers
variable {M K N : Nat} (D : DotDims ⟨2, ![M, K]⟩ ⟨2, ![K, N]⟩ ⟨2, ![M, N]⟩)

/-- `L·W + b`. -/
theorem kpre1_row (hD : Plain D) {φ₁ φ₂ : FTy} (prec : Option ContractPrecision)
    (L : FVec Ideal ⟨2, ![M, K]⟩ φ₁) (W : FVec Ideal ⟨2, ![K, N]⟩ φ₂)
    (hW : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbb : (⟨2, ![1, N]⟩ : Shape).Broadcasts ⟨2, ![M, N]⟩) (p : Fin M) :
    row (addf (FloatOps.matmul D prec L (shapeCast ⟨2, ![K, N]⟩ W hW) (constant (F := Ideal) ⟨2, ![M, N]⟩ .f32 0x00000000#32))
          (broadcastTo ⟨2, ![M, N]⟩ (shapeCast ⟨2, ![1, N]⟩ b hb) hbb)) p
      = pre1 (row L p) (mat W) (rowvec b) := by
  have h1 := matmul_row D hD prec L W hW p
  have h2 := bias_row b hb hbb p
  funext j
  unfold pre1
  rw [← h1, ← h2]
  rfl

/-- `(L₁·W₁ + L₂·W₂) + b`, the two products of one shape `[M, K] × [K, N]`. -/
theorem kpre2_row (hD : Plain D) {φ₁ φ₂ φ₃ φ₄ : FTy} (prec prec' : Option ContractPrecision)
    (L₁ : FVec Ideal ⟨2, ![M, K]⟩ φ₁) (W₁ : FVec Ideal ⟨2, ![K, N]⟩ φ₂)
    (hW₁ : (⟨2, ![K, N]⟩ : Shape).ShapeCasts ⟨2, ![K, N]⟩)
    (L₂ : FVec Ideal ⟨2, ![M, K]⟩ φ₃) (W₂ : FVec Ideal ⟨2, ![K, N]⟩ φ₄)
    (hW₂ : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbb : (⟨2, ![1, N]⟩ : Shape).Broadcasts ⟨2, ![M, N]⟩) (p : Fin M) :
    row (addf (addf (FloatOps.matmul D prec L₁ (shapeCast ⟨2, ![K, N]⟩ W₁ hW₁) (constant (F := Ideal) ⟨2, ![M, N]⟩ .f32 0x00000000#32))
                (FloatOps.matmul D prec' L₂ (shapeCast ⟨2, ![K, N]⟩ W₂ hW₂) (constant (F := Ideal) ⟨2, ![M, N]⟩ .f32 0x00000000#32)))
          (broadcastTo ⟨2, ![M, N]⟩ (shapeCast ⟨2, ![1, N]⟩ b hb) hbb)) p
      = pre2 (row L₁ p) (row L₂ p) (mat W₁) (mat W₂) (rowvec b) := by
  have h1 := matmul_row D hD prec L₁ W₁ hW₁ p
  have h2 := matmul_row D hD prec' L₂ W₂ hW₂ p
  have h3 := bias_row b hb hbb p
  funext j
  unfold pre2
  rw [← h1, ← h2, ← h3]
  rfl

/-- `(A + L·W) + b`. -/
theorem kprop_row (hD : Plain D) {φ₁ φ₂ : FTy} (prec : Option ContractPrecision)
    (A : FVec Ideal ⟨2, ![M, N]⟩ .f32)
    (L : FVec Ideal ⟨2, ![M, K]⟩ φ₁) (W : FVec Ideal ⟨2, ![K, N]⟩ φ₂)
    (hW : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbb : (⟨2, ![1, N]⟩ : Shape).Broadcasts ⟨2, ![M, N]⟩) (p : Fin M) :
    row (addf (addf A (FloatOps.matmul D prec L (shapeCast ⟨2, ![K, N]⟩ W hW) (constant (F := Ideal) ⟨2, ![M, N]⟩ .f32 0x00000000#32)))
          (broadcastTo ⟨2, ![M, N]⟩ (shapeCast ⟨2, ![1, N]⟩ b hb) hbb)) p
      = prop (row A p) (row L p) (mat W) (rowvec b) := by
  have h1 := matmul_row D hD prec L W hW p
  have h2 := bias_row b hb hbb p
  funext j
  unfold prop
  rw [← h1, ← h2]
  rfl

end KernelLayers

/-- `relu`, kernel operations: the maximum with the zero splat. -/
theorem krelu_row {R N : Nat} (V : FVec Ideal ⟨2, ![R, N]⟩ .f32) (p : Fin R) :
    row (maximumf V (broadcast ⟨2, ![R, N]⟩ (Scalar.ofBits (F := Ideal) .f32 0x00000000#32))) p
      = fun k => max (row V p k) 0 := by
  funext k
  show max (V (ix2 p k)) (Ideal.ofBits .f32 0x00000000#32) = _
  rw [Ideal.ofBits_zero_f32]
  rfl

/-! ## Dense layers, host operations -/

section HostLayers
variable {M K N : Nat} (D : DotDims ⟨2, ![M, K]⟩ ⟨2, ![K, N]⟩ ⟨2, ![M, N]⟩)

/-- `L·W + b`. -/
theorem hpre1_row (hD : Plain D) {φ₁ φ₂ : FTy} (prec : Option ContractPrecision)
    (L : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) :
    row (addf (Host.dotGeneral D prec L W)
          (broadcastInDim ⟨2, ![M, N]⟩ ![0, 1] h2 (broadcastInDim ⟨2, ![1, N]⟩ ![1] h1 b))) p
      = pre1 (row L p) (mat W) (vec1 b) := by
  have e1 := dot_row D hD prec L W p
  have e2 := hbias_row b h1 h2 p
  funext j
  unfold pre1
  rw [← e1, ← e2]
  rfl

/-- `(L₁·W₁ + L₂·W₂) + b`. -/
theorem hpre2_row (hD : Plain D) {φ₁ φ₂ φ₃ φ₄ : FTy} (prec prec' : Option ContractPrecision)
    (L₁ : FVec Ideal ⟨2, ![M, K]⟩ φ₁) (W₁ : FVec Ideal ⟨2, ![K, N]⟩ φ₂)
    (L₂ : FVec Ideal ⟨2, ![M, K]⟩ φ₃) (W₂ : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) :
    row (addf (addf (Host.dotGeneral D prec L₁ W₁) (Host.dotGeneral D prec' L₂ W₂))
          (broadcastInDim ⟨2, ![M, N]⟩ ![0, 1] h2 (broadcastInDim ⟨2, ![1, N]⟩ ![1] h1 b))) p
      = pre2 (row L₁ p) (row L₂ p) (mat W₁) (mat W₂) (vec1 b) := by
  have e1 := dot_row D hD prec L₁ W₁ p
  have e2 := dot_row D hD prec' L₂ W₂ p
  have e3 := hbias_row b h1 h2 p
  funext j
  unfold pre2
  rw [← e1, ← e2, ← e3]
  rfl

/-- `(A + L·W) + b`. -/
theorem hprop_row (hD : Plain D) {φ₁ φ₂ : FTy} (prec : Option ContractPrecision)
    (A : FVec Ideal ⟨2, ![M, N]⟩ .f32) (L : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) :
    row (addf (addf A (Host.dotGeneral D prec L W))
          (broadcastInDim ⟨2, ![M, N]⟩ ![0, 1] h2 (broadcastInDim ⟨2, ![1, N]⟩ ![1] h1 b))) p
      = prop (row A p) (row L p) (mat W) (vec1 b) := by
  have e1 := dot_row D hD prec L W p
  have e2 := hbias_row b h1 h2 p
  funext j
  unfold prop
  rw [← e1, ← e2]
  rfl

end HostLayers

/-- `relu`, host operations: the maximum with the spread zero constant. -/
theorem hrelu_row {R N : Nat} (V : FVec Ideal ⟨2, ![R, N]⟩ .f32)
    (h : (⟨0, ![]⟩ : Shape).BroadcastsInDim ⟨2, ![R, N]⟩ (![] : Fin 0 → Fin 2)) (p : Fin R) :
    row (maximumf V (broadcastInDim ⟨2, ![R, N]⟩ ![] h (constant (F := Ideal) ⟨0, ![]⟩ .f32 0x00000000#32))) p
      = fun k => max (row V p k) 0 := by
  have e := splat_row (R := R) (N := N) 0x00000000#32 h p
  funext k
  show max (V (ix2 p k)) (row (broadcastInDim ⟨2, ![R, N]⟩ ![] h (constant (F := Ideal) ⟨0, ![]⟩ .f32 0x00000000#32)) p k) = _
  rw [e, Ideal.ofBits_zero_f32]
  rfl

end Cert.LibRowLayers

end
-- ==== Proof.KernelCells.lean ====
/-
  The kernel's three gated cells, row by row.

  Each value the body computes from its loaded blocks is a matrix of 512 rows whose row `p` depends on row `p` of the
  input block only. With `X` the input block and the `W`, `b` the loaded weights and biases:

  * task 1: the pre-activation `z₁ = X·Wk₁ + b₁`, the cell state `c₁ = σ(i₁)·tanh(g₁)` (the cell starts from zero, so the
    body never forms the forget gate's term) and the hidden state `h₁ = σ(o₁)·tanh(c₁)`;
  * task 2: `z₂ = (X·Wk₂ + h₁·Wr₂) + b₂`, `c₂ = σ(f₂)·c₁ + σ(i₂)·tanh(g₂)`, `h₂ = σ(o₂)·tanh(c₂)`;
  * task 3, from the handed-on states `(h₁ + h₂·Wh) + bh` and `(c₁ + c₂·Wc) + bc`: `z₃`, `c₃`, `h₃` likewise.

  The roundings to bf16 on the way into each product are the identity on the extended reals.
-/
import proofs.«176691_j9079560863839_1_alg».proof.Proof.Gen.KernelIdeal.Skeleton
import proofs.«176691_j9079560863839_1_alg».proof.Proof.LibRowLayers

noncomputable section

namespace Cert.KernelIdeal.RowValue

open Cert.KernelIdeal Cert.KernelIdeal.Gen Idealize.ShloMosaic Idealize.ShloMosaic.ValueIdx Cert.Spec Cert.LibRowLayers

theorem plain_1024 : Plain dot_S512x256_S256x1024_S512x1024_1_0_0_1_n_n := ⟨rfl, rfl, rfl, rfl, rfl, rfl⟩
theorem plain_256 : Plain dot_S512x256_S256x256_S512x256_1_0_0_1_n_n := ⟨rfl, rfl, rfl, rfl, rfl, rfl⟩

/-! ## Task 1 -/

/-- `z₁ = X·Wk₁ + b₁`. -/
theorem row_z1 (X : Vec Ideal S512x256 .f32) (W : Vec Ideal S256x1024 .bf16) (b : Vec Ideal S1x1024 .f32) (p : Fin 512) :
    row (k0_pay4 X W b) p = pre1 (row X p) (mat W) (rowvec b) := by
  unfold k0_pay4 k0_pay3
  dsimp only
  exact kpre1_row _ plain_1024 none _ W _ b _ _ p

/-- `c₁ = σ(i₁)·tanh(g₁)`. -/
theorem row_c1 (X : Vec Ideal S512x256 .f32) (W : Vec Ideal S256x1024 .bf16) (b : Vec Ideal S1x1024 .f32) (p : Fin 512) :
    row (k0_pay5 X W b) p = cellc0 (pre1 (row X p) (mat W) (rowvec b)) := by
  unfold k0_pay5
  dsimp only
  rw [kcellc0_row, row_z1]

/-- `h₁ = σ(o₁)·tanh(c₁)`. -/
theorem row_h1 (X : Vec Ideal S512x256 .f32) (W : Vec Ideal S256x1024 .bf16) (b : Vec Ideal S1x1024 .f32) (p : Fin 512) :
    row (k0_pay6 X W b) p
      = cellh (pre1 (row X p) (mat W) (rowvec b)) (cellc0 (pre1 (row X p) (mat W) (rowvec b))) := by
  unfold k0_pay6
  dsimp only
  rw [kcellh_row, row_z1, row_c1]

/-! ## Task 2 -/

/-- `z₂ = (X·Wk₂ + h₁·Wr₂) + b₂`. -/
theorem row_z2 (X : Vec Ideal S512x256 .f32) (W : Vec Ideal S256x1024 .bf16) (b : Vec Ideal S1x1024 .f32)
    (Wk Wr : Vec Ideal S256x1024 .bf16) (b' : Vec Ideal S1x1024 .f32) (p : Fin 512) :
    row (k0_pay7 X W b Wk Wr b') p
      = pre2 (row X p) (row (k0_pay6 X W b) p) (mat Wk) (mat Wr) (rowvec b') := by
  unfold k0_pay7 k0_pay3
  dsimp only
  exact kpre2_row _ plain_1024 none none _ Wk _ _ Wr _ b' _ _ p

/-- `c₂ = σ(f₂)·c₁ + σ(i₂)·tanh(g₂)`. -/
theorem row_c2 (X : Vec Ideal S512x256 .f32) (W : Vec Ideal S256x1024 .bf16) (b : Vec Ideal S1x1024 .f32)
    (Wk Wr : Vec Ideal S256x1024 .bf16) (b' : Vec Ideal S1x1024 .f32) (p : Fin 512) :
    row (k0_pay8 X W b Wk Wr b') p = cellc (row (k0_pay7 X W b Wk Wr b') p) (row (k0_pay5 X W b) p) := by
  unfold k0_pay8
  dsimp only
  rw [kcellc_row]

/-- `h₂ = σ(o₂)·tanh(c₂)`. -/
theorem row_h2 (X : Vec Ideal S512x256 .f32) (W : Vec Ideal S256x1024 .bf16) (b : Vec Ideal S1x1024 .f32)
    (Wk Wr : Vec Ideal S256x1024 .bf16) (b' : Vec Ideal S1x1024 .f32) (p : Fin 512) :
    row (k0_pay9 X W b Wk Wr b') p = cellh (row (k0_pay7 X W b Wk Wr b') p) (row (k0_pay8 X W b Wk Wr b') p) := by
  unfold k0_pay9
  dsimp only
  rw [kcellh_row]

/-! ## Task 3, over the values task 1 and task 2 left (`xb` the input block, `c₁ h₁ c₂ h₂` the states) -/

/-- `z₃ = (X·Wk₃ + ((h₁ + h₂·Wh) + bh)·Wr₃) + b₃`. -/
theorem row_z3 (xb : FVec Ideal S512x256 .bf16) (h1 h2 : FVec Ideal S512x256 .f32)
    (Wh : Vec Ideal S256x256 .bf16) (bh : Vec Ideal S1x256 .f32)
    (Wk Wr : Vec Ideal S256x1024 .bf16) (b : Vec Ideal S1x1024 .f32) (p : Fin 512) :
    row (k0_pay10 xb h1 h2 Wh bh Wk Wr b) p
      = pre2 (row xb p) (prop (row h1 p) (row h2 p) (mat Wh) (rowvec bh)) (mat Wk) (mat Wr) (rowvec b) := by
  unfold k0_pay10
  dsimp only
  refine (kpre2_row _ plain_1024 none none xb Wk _ _ Wr _ b _ _ p).trans ?_
  rw [row_truncf, kprop_row _ plain_256]
  rfl

/-- `h₃ = σ(o₃)·tanh(c₃)`, `c₃ = σ(f₃)·((c₁ + c₂·Wc) + bc) + σ(i₃)·tanh(g₃)`. -/
theorem row_h3 (xb : FVec Ideal S512x256 .bf16) (c1 h1 c2 h2 : FVec Ideal S512x256 .f32)
    (Wh : Vec Ideal S256x256 .bf16) (bh : Vec Ideal S1x256 .f32) (Wc : Vec Ideal S256x256 .bf16) (bc : Vec Ideal S1x256 .f32)
    (Wk Wr : Vec Ideal S256x1024 .bf16) (b : Vec Ideal S1x1024 .f32) (p : Fin 512) :
    row (k0_pay13 (k0_pay11 xb h1 h2 Wh bh Wk Wr b) (k0_pay12 xb c1 h1 c2 h2 Wh bh Wc bc Wk Wr b)) p
      = cellh (row (k0_pay10 xb h1 h2 Wh bh Wk Wr b) p)
          (cellc (row (k0_pay10 xb h1 h2 Wh bh Wk Wr b) p) (prop (row c1 p) (row c2 p) (mat Wc) (rowvec bc))) := by
  unfold k0_pay13 k0_pay11 k0_pay12
  dsimp only
  rw [kcellh_row, kcellc_row, kprop_row _ plain_256]
  rfl

end Cert.KernelIdeal.RowValue

end
-- ==== Proof.KernelHeads.lean ====
/-
  The kernel's three classifiers, row by row: for a hidden-state matrix `H` of 512 rows, row `p` of
  `relu(H·Wm + bm)·Wo + bo` is `head` of row `p` of `H` — two products, each into a zero accumulator, each followed by
  its bias spread over the rows, the maximum with the zero splat between them. The roundings to bf16 on the way into
  the two products are the identity on the extended reals.
-/
import proofs.«176691_j9079560863839_1_alg».proof.Proof.Gen.KernelIdeal.Skeleton
import proofs.«176691_j9079560863839_1_alg».proof.Proof.LibRowLayers

noncomputable section

namespace Cert.KernelIdeal.RowValue

open Cert.KernelIdeal Cert.KernelIdeal.Gen Idealize.ShloMosaic Idealize.ShloMosaic.ValueIdx Cert.Spec Cert.LibRowLayers

theorem plain_m : Plain dot_S512x256_S256x256_S512x256_1_0_0_1_n_n := ⟨rfl, rfl, rfl, rfl, rfl, rfl⟩
theorem plain_103 : Plain dot_S512x256_S256x103_S512x103_1_0_0_1_n_n := ⟨rfl, rfl, rfl, rfl, rfl, rfl⟩
theorem plain_119 : Plain dot_S512x256_S256x119_S512x119_1_0_0_1_n_n := ⟨rfl, rfl, rfl, rfl, rfl, rfl⟩
theorem plain_12 : Plain dot_S512x256_S256x12_S512x12_1_0_0_1_n_n := ⟨rfl, rfl, rfl, rfl, rfl, rfl⟩

/-- Task 1's classifier (103 classes). -/
theorem row_head1 (H : FVec Ideal S512x256 .f32) (Wm : Vec Ideal S256x256 .bf16) (bm : Vec Ideal S1x256 .f32)
    (Wo : Vec Ideal S256x103 .bf16) (bo : Vec Ideal S1x103 .f32) (p : Fin 512) :
    row (k0_pay14 H Wm bm Wo bo) p = head (row H p) (mat Wm) (rowvec bm) (mat Wo) (rowvec bo) := by
  unfold k0_pay14
  dsimp only
  refine (kpre1_row _ plain_103 none _ Wo _ bo _ _ p).trans ?_
  rw [row_truncf, krelu_row, kpre1_row _ plain_m, row_truncf]
  rfl

/-- Task 2's classifier (119 classes): the second product's bias is added by a later operation of the body. -/
theorem row_head2 (H : FVec Ideal S512x256 .f32) (Wm : Vec Ideal S256x256 .bf16) (bm : Vec Ideal S1x256 .f32)
    (Wo : Vec Ideal S256x119 .bf16) (bo : Vec Ideal S1x119 .f32) (p : Fin 512) :
    row (k0_pay1 (k0_pay15 H Wm bm Wo) bo) p = head (row H p) (mat Wm) (rowvec bm) (mat Wo) (rowvec bo) := by
  unfold k0_pay1 k0_pay15
  dsimp only
  refine (kpre1_row _ plain_119 none _ Wo _ bo _ _ p).trans ?_
  rw [row_truncf, krelu_row, kpre1_row _ plain_m, row_truncf]
  rfl

/-- Task 3's classifier (12 classes). -/
theorem row_head3 (H : FVec Ideal S512x256 .f32) (Wm : Vec Ideal S256x256 .bf16) (bm : Vec Ideal S1x256 .f32)
    (Wo : Vec Ideal S256x12 .bf16) (bo : Vec Ideal S1x12 .f32) (p : Fin 512) :
    row (k0_pay2 H Wm bm Wo bo) p = head (row H p) (mat Wm) (rowvec bm) (mat Wo) (rowvec bo) := by
  unfold k0_pay2
  dsimp only
  refine (kpre1_row _ plain_12 none _ Wo _ bo _ _ p).trans ?_
  rw [row_truncf, krelu_row, kpre1_row _ plain_m, row_truncf]
  rfl

end Cert.KernelIdeal.RowValue

end
-- ==== Proof.KernelOut.lean ====
/-
  What the body leaves in each result block, row by row.

  The body stores each of its three results once, through the whole block, so the block after the body is the stored
  value; the loads are whole blocks too. Row `p` of each stored value is the network of Spec.lean on row `p` of the
  input block, over the weights the point's other blocks hold (`blockParams`: each weight matrix read at its two
  coordinates, each bias at the lane of its one row).
-/
import proofs.«176691_j9079560863839_1_alg».proof.Proof.KernelIdealFrame
import proofs.«176691_j9079560863839_1_alg».proof.Proof.KernelCells
import proofs.«176691_j9079560863839_1_alg».proof.Proof.KernelHeads

noncomputable section

namespace Cert.KernelIdeal.RowValue

open Cert.KernelIdeal Cert.KernelIdeal.Gen Cert.KernelIdeal.GenP Idealize.ShloMosaic Idealize.ShloMosaic.ValueIdx Cert.Spec Cert.LibRowLayers

/-- The weights as the body's loaded blocks hold them (the window numbers are the pallas_call's operand positions). -/
def blockParams (x1 : Vec Ideal S256x1024 .bf16) (x3 : Vec Ideal S1x1024 .f32) (x4 : Vec Ideal S256x1024 .bf16) (x5 : Vec Ideal S256x1024 .bf16) (x6 : Vec Ideal S1x1024 .f32) (x7 : Vec Ideal S256x1024 .bf16) (x8 : Vec Ideal S256x1024 .bf16) (x9 : Vec Ideal S1x1024 .f32) (x10 : Vec Ideal S256x256 .bf16) (x11 : Vec Ideal S1x256 .f32) (x12 : Vec Ideal S256x256 .bf16) (x13 : Vec Ideal S1x256 .f32) (x14 : Vec Ideal S256x256 .bf16) (x15 : Vec Ideal S1x256 .f32) (x16 : Vec Ideal S256x103 .bf16) (x17 : Vec Ideal S1x103 .f32) (x18 : Vec Ideal S256x256 .bf16) (x19 : Vec Ideal S1x256 .f32) (x20 : Vec Ideal S256x119 .bf16) (x21 : Vec Ideal S1x119 .f32) (x22 : Vec Ideal S256x256 .bf16) (x23 : Vec Ideal S1x256 .f32) (x24 : Vec Ideal S256x12 .bf16) (x25 : Vec Ideal S1x12 .f32) : Params where
  Wk1 := mat x1
  b1 := rowvec x3
  Wk2 := mat x4
  Wr2 := mat x5
  b2 := rowvec x6
  Wk3 := mat x7
  Wr3 := mat x8
  b3 := rowvec x9
  Wh23 := mat x10
  bh23 := rowvec x11
  Wc23 := mat x12
  bc23 := rowvec x13
  Wm1 := mat x14
  bm1 := rowvec x15
  Wo1 := mat x16
  bo1 := rowvec x17
  Wm2 := mat x18
  bm2 := rowvec x19
  Wo2 := mat x20
  bo2 := rowvec x21
  Wm3 := mat x22
  bm3 := rowvec x23
  Wo3 := mat x24
  bo3 := rowvec x25

/-- The zero offsets of a rank-2 rectangle are the constant function `0`. -/
theorem hz : (![0, 0] : Fin 2 → Nat) = fun _ => 0 := LibBlock.hz

/-- Task 1's result block. -/
theorem out26_row (x0 : Vec Ideal S512x256 .f32) (x1 : Vec Ideal S256x1024 .bf16) (x2 : Vec Ideal S256x1024 .bf16) (x3 : Vec Ideal S1x1024 .f32) (x4 : Vec Ideal S256x1024 .bf16) (x5 : Vec Ideal S256x1024 .bf16) (x6 : Vec Ideal S1x1024 .f32) (x7 : Vec Ideal S256x1024 .bf16) (x8 : Vec Ideal S256x1024 .bf16) (x9 : Vec Ideal S1x1024 .f32) (x10 : Vec Ideal S256x256 .bf16) (x11 : Vec Ideal S1x256 .f32) (x12 : Vec Ideal S256x256 .bf16) (x13 : Vec Ideal S1x256 .f32) (x14 : Vec Ideal S256x256 .bf16) (x15 : Vec Ideal S1x256 .f32) (x16 : Vec Ideal S256x103 .bf16) (x17 : Vec Ideal S1x103 .f32) (x18 : Vec Ideal S256x256 .bf16) (x19 : Vec Ideal S1x256 .f32) (x20 : Vec Ideal S256x119 .bf16) (x21 : Vec Ideal S1x119 .f32) (x22 : Vec Ideal S256x256 .bf16) (x23 : Vec Ideal S1x256 .f32) (x24 : Vec Ideal S256x12 .bf16) (x25 : Vec Ideal S1x12 .f32) (p : Fin 512) :
    row (out0_26 x0 x1 x2 x3 x4 x5 x6 x7 x8 x9 x10 x11 x12 x13 x14 x15 x16 x17 x18 x19 x20 x21 x22 x23 x24 x25) p = (blockParams x1 x3 x4 x5 x6 x7 x8 x9 x10 x11 x12 x13 x14 x15 x16 x17 x18 x19 x20 x21 x22 x23 x24 x25).out1 (row x0 p) := by
  unfold out0_26
  rw [View.canon_unit_zero hz]
  simp only [View.ld_unit_zero (S := S512x256) hz, View.ld_unit_zero (S := S256x1024) hz, View.ld_unit_zero (S := S1x1024) hz,
    View.ld_unit_zero (S := S256x256) hz, View.ld_unit_zero (S := S1x256) hz, View.ld_unit_zero (S := S256x103) hz,
    View.ld_unit_zero (S := S1x103) hz]
  rw [row_head1, row_h1]
  rfl

/-- Task 2's result block. -/
theorem out27_row (x0 : Vec Ideal S512x256 .f32) (x1 : Vec Ideal S256x1024 .bf16) (x2 : Vec Ideal S256x1024 .bf16) (x3 : Vec Ideal S1x1024 .f32) (x4 : Vec Ideal S256x1024 .bf16) (x5 : Vec Ideal S256x1024 .bf16) (x6 : Vec Ideal S1x1024 .f32) (x7 : Vec Ideal S256x1024 .bf16) (x8 : Vec Ideal S256x1024 .bf16) (x9 : Vec Ideal S1x1024 .f32) (x10 : Vec Ideal S256x256 .bf16) (x11 : Vec Ideal S1x256 .f32) (x12 : Vec Ideal S256x256 .bf16) (x13 : Vec Ideal S1x256 .f32) (x14 : Vec Ideal S256x256 .bf16) (x15 : Vec Ideal S1x256 .f32) (x16 : Vec Ideal S256x103 .bf16) (x17 : Vec Ideal S1x103 .f32) (x18 : Vec Ideal S256x256 .bf16) (x19 : Vec Ideal S1x256 .f32) (x20 : Vec Ideal S256x119 .bf16) (x21 : Vec Ideal S1x119 .f32) (x22 : Vec Ideal S256x256 .bf16) (x23 : Vec Ideal S1x256 .f32) (x24 : Vec Ideal S256x12 .bf16) (x25 : Vec Ideal S1x12 .f32) (p : Fin 512) :
    row (out0_27 x0 x1 x2 x3 x4 x5 x6 x7 x8 x9 x10 x11 x12 x13 x14 x15 x16 x17 x18 x19 x20 x21 x22 x23 x24 x25) p = (blockParams x1 x3 x4 x5 x6 x7 x8 x9 x10 x11 x12 x13 x14 x15 x16 x17 x18 x19 x20 x21 x22 x23 x24 x25).out2 (row x0 p) := by
  unfold out0_27
  rw [View.canon_unit_zero hz]
  simp only [View.ld_unit_zero (S := S512x256) hz, View.ld_unit_zero (S := S256x1024) hz, View.ld_unit_zero (S := S1x1024) hz,
    View.ld_unit_zero (S := S256x256) hz, View.ld_unit_zero (S := S1x256) hz, View.ld_unit_zero (S := S256x119) hz,
    View.ld_unit_zero (S := S1x119) hz]
  rw [row_head2, row_h2, row_c2, row_z2, row_h1, row_c1]
  rfl

/-- Task 3's result block. -/
theorem out28_row (x0 : Vec Ideal S512x256 .f32) (x1 : Vec Ideal S256x1024 .bf16) (x2 : Vec Ideal S256x1024 .bf16) (x3 : Vec Ideal S1x1024 .f32) (x4 : Vec Ideal S256x1024 .bf16) (x5 : Vec Ideal S256x1024 .bf16) (x6 : Vec Ideal S1x1024 .f32) (x7 : Vec Ideal S256x1024 .bf16) (x8 : Vec Ideal S256x1024 .bf16) (x9 : Vec Ideal S1x1024 .f32) (x10 : Vec Ideal S256x256 .bf16) (x11 : Vec Ideal S1x256 .f32) (x12 : Vec Ideal S256x256 .bf16) (x13 : Vec Ideal S1x256 .f32) (x14 : Vec Ideal S256x256 .bf16) (x15 : Vec Ideal S1x256 .f32) (x16 : Vec Ideal S256x103 .bf16) (x17 : Vec Ideal S1x103 .f32) (x18 : Vec Ideal S256x256 .bf16) (x19 : Vec Ideal S1x256 .f32) (x20 : Vec Ideal S256x119 .bf16) (x21 : Vec Ideal S1x119 .f32) (x22 : Vec Ideal S256x256 .bf16) (x23 : Vec Ideal S1x256 .f32) (x24 : Vec Ideal S256x12 .bf16) (x25 : Vec Ideal S1x12 .f32) (p : Fin 512) :
    row (out0_28 x0 x1 x2 x3 x4 x5 x6 x7 x8 x9 x10 x11 x12 x13 x14 x15 x16 x17 x18 x19 x20 x21 x22 x23 x24 x25) p = (blockParams x1 x3 x4 x5 x6 x7 x8 x9 x10 x11 x12 x13 x14 x15 x16 x17 x18 x19 x20 x21 x22 x23 x24 x25).out3 (row x0 p) := by
  unfold out0_28
  rw [View.canon_unit_zero hz]
  simp only [View.ld_unit_zero (S := S512x256) hz, View.ld_unit_zero (S := S256x1024) hz, View.ld_unit_zero (S := S1x1024) hz,
    View.ld_unit_zero (S := S256x256) hz, View.ld_unit_zero (S := S1x256) hz, View.ld_unit_zero (S := S256x12) hz,
    View.ld_unit_zero (S := S1x12) hz]
  rw [row_head3, row_h3, row_z3, row_h2, row_c2, row_z2, row_h1, row_c1]
  rfl

end Cert.KernelIdeal.RowValue

end
-- ==== Proof.KernelFinal.lean ====
/-
  From the blocks to the three result arrays.

  The grid has 128 points; point `t` stages rows `[512 t, 512 t + 512)` of the input matrix and of each result array,
  and the WHOLE of every weight (each weight's block index is `(0, 0)` at every point). The weights reach the region
  through host operations: the matrices rounded to bf16 (the identity on the extended reals), the bias vectors laid as
  `1 × n` rows. So at every point the weights the body loads are the arguments' (`params_eq`), row `p` of the input
  block is row `512 t + p` of the input (`row_block_0`), and what the point writes back is its block of ONE whole-array
  function of the arguments (`Spec.G1`, `G2`, `G3`); the 128 blocks tile each result array (row `r` lies in the block of
  point `r / 512`), so each array ends as that function.
-/
import Idealize.ShloMosaic.Lib.Pipeline.Value
import proofs.«176691_j9079560863839_1_alg».proof.Proof.KernelOut
import Idealize.ShloMosaic.Lib.ValueLayout

noncomputable section

namespace Cert.KernelIdeal.RowValue

open Cert.KernelIdeal Cert.KernelIdeal.Gen Cert.KernelIdeal.GenP Idealize.ShloMosaic Idealize.ShloMosaic.TcCoe Idealize.SL.Sem
open Idealize.ShloMosaic.ValueIdx Cert.Spec Cert.LibRowLayers Idealize.ShloMosaic.StableHlo
open Idealize.ShloMosaic.Pipeline (Dat)

variable (m : (ℓ : Loc nD τ sig) → Buf (Elt Ideal) ℓ) (ρ : Dev nD → PrngReg)

/-- Two functions of a matrix index that agree at every pair of coordinates are equal. -/
theorem ext2 {a b : Nat} {α : Type} {f g : (⟨2, ![a, b]⟩ : Shape).Idx → α} (h : ∀ (p : Fin a) (q : Fin b), f (ix2 p q) = g (ix2 p q)) :
    f = g := by
  funext i
  rw [eq_ix2 i]
  exact h _ _

/-! ## The weights as the region finds them -/

theorem entry_1 (c : Dev nD) : (V m c main_v0 : S256x1024.Idx → EReal) = m ((c : Thread nD τ).loc main_arg1) := by
  dsimp only [V, hostOps0]; after_results; rfl
theorem entry_3 (c : Dev nD) :
    (V m c main_v14 : S1x1024.Idx → EReal) = shapeCast S1x1024 (m ((c : Thread nD τ).loc main_arg3)) shapeCasts_S1024_S1x1024 := by
  dsimp only [V, hostOps0]; after_results; rfl
theorem entry_4 (c : Dev nD) : (V m c main_v2 : S256x1024.Idx → EReal) = m ((c : Thread nD τ).loc main_arg4) := by
  dsimp only [V, hostOps0]; after_results; rfl
theorem entry_5 (c : Dev nD) : (V m c main_v3 : S256x1024.Idx → EReal) = m ((c : Thread nD τ).loc main_arg5) := by
  dsimp only [V, hostOps0]; after_results; rfl
theorem entry_6 (c : Dev nD) :
    (V m c main_v15 : S1x1024.Idx → EReal) = shapeCast S1x1024 (m ((c : Thread nD τ).loc main_arg6)) shapeCasts_S1024_S1x1024 := by
  dsimp only [V, hostOps0]; after_results; rfl
theorem entry_7 (c : Dev nD) : (V m c main_v4 : S256x1024.Idx → EReal) = m ((c : Thread nD τ).loc main_arg7) := by
  dsimp only [V, hostOps0]; after_results; rfl
theorem entry_8 (c : Dev nD) : (V m c main_v5 : S256x1024.Idx → EReal) = m ((c : Thread nD τ).loc main_arg8) := by
  dsimp only [V, hostOps0]; after_results; rfl
theorem entry_9 (c : Dev nD) :
    (V m c main_v16 : S1x1024.Idx → EReal) = shapeCast S1x1024 (m ((c : Thread nD τ).loc main_arg9)) shapeCasts_S1024_S1x1024 := by
  dsimp only [V, hostOps0]; after_results; rfl
theorem entry_10 (c : Dev nD) : (V m c main_v6 : S256x256.Idx → EReal) = m ((c : Thread nD τ).loc main_arg10) := by
  dsimp only [V, hostOps0]; after_results; rfl
theorem entry_11 (c : Dev nD) :
    (V m c main_v17 : S1x256.Idx → EReal) = shapeCast S1x256 (m ((c : Thread nD τ).loc main_arg11)) shapeCasts_S256_S1x256 := by
  dsimp only [V, hostOps0]; after_results; rfl
theorem entry_12 (c : Dev nD) : (V m c main_v7 : S256x256.Idx → EReal) = m ((c : Thread nD τ).loc main_arg12) := by
  dsimp only [V, hostOps0]; after_results; rfl
theorem entry_13 (c : Dev nD) :
    (V m c main_v18 : S1x256.Idx → EReal) = shapeCast S1x256 (m ((c : Thread nD τ).loc main_arg13)) shapeCasts_S256_S1x256 := by
  dsimp only [V, hostOps0]; after_results; rfl
theorem entry_14 (c : Dev nD) : (V m c main_v8 : S256x256.Idx → EReal) = m ((c : Thread nD τ).loc main_arg14) := by
  dsimp only [V, hostOps0]; after_results; rfl
theorem entry_15 (c : Dev nD) :
    (V m c main_v19 : S1x256.Idx → EReal) = shapeCast S1x256 (m ((c : Thread nD τ).loc main_arg15)) shapeCasts_S256_S1x256 := by
  dsimp only [V, hostOps0]; after_results; rfl
theorem entry_16 (c : Dev nD) : (V m c main_v11 : S256x103.Idx → EReal) = m ((c : Thread nD τ).loc main_arg20) := by
  dsimp only [V, hostOps0]; after_results; rfl
theorem entry_17 (c : Dev nD) :
    (V m c main_v22 : S1x103.Idx → EReal) = shapeCast S1x103 (m ((c : Thread nD τ).loc main_arg21)) shapeCasts_S103_S1x103 := by
  dsimp only [V, hostOps0]; after_results; rfl
theorem entry_18 (c : Dev nD) : (V m c main_v9 : S256x256.Idx → EReal) = m ((c : Thread nD τ).loc main_arg16) := by
  dsimp only [V, hostOps0]; after_results; rfl
theorem entry_19 (c : Dev nD) :
    (V m c main_v20 : S1x256.Idx → EReal) = shapeCast S1x256 (m ((c : Thread nD τ).loc main_arg17)) shapeCasts_S256_S1x256 := by
  dsimp only [V, hostOps0]; after_results; rfl
theorem entry_20 (c : Dev nD) : (V m c main_v12 : S256x119.Idx → EReal) = m ((c : Thread nD τ).loc main_arg22) := by
  dsimp only [V, hostOps0]; after_results; rfl
theorem entry_21 (c : Dev nD) :
    (V m c main_v23 : S1x119.Idx → EReal) = shapeCast S1x119 (m ((c : Thread nD τ).loc main_arg23)) shapeCasts_S119_S1x119 := by
  dsimp only [V, hostOps0]; after_results; rfl
theorem entry_22 (c : Dev nD) : (V m c main_v10 : S256x256.Idx → EReal) = m ((c : Thread nD τ).loc main_arg18) := by
  dsimp only [V, hostOps0]; after_results; rfl
theorem entry_23 (c : Dev nD) :
    (V m c main_v21 : S1x256.Idx → EReal) = shapeCast S1x256 (m ((c : Thread nD τ).loc main_arg19)) shapeCasts_S256_S1x256 := by
  dsimp only [V, hostOps0]; after_results; rfl
theorem entry_24 (c : Dev nD) : (V m c main_v13 : S256x12.Idx → EReal) = m ((c : Thread nD τ).loc main_arg24) := by
  dsimp only [V, hostOps0]; after_results; rfl
theorem entry_25 (c : Dev nD) :
    (V m c main_v24 : S1x12.Idx → EReal) = shapeCast S1x12 (m ((c : Thread nD τ).loc main_arg25)) shapeCasts_S12_S1x12 := by
  dsimp only [V, hostOps0]; after_results; rfl

/-! ## The index maps over the grid -/

/-- The input's and the results' blocks move one block of 512 rows per point; their column block is fixed. -/
theorem moves : ∀ t : Fin cfg0.N,
    win0_0.index t (0 : Fin 2) = t.val ∧ win0_0.index t (1 : Fin 2) = 0
    ∧ win0_26.index t (0 : Fin 2) = t.val ∧ win0_26.index t (1 : Fin 2) = 0
    ∧ win0_27.index t (0 : Fin 2) = t.val ∧ win0_27.index t (1 : Fin 2) = 0
    ∧ win0_28.index t (0 : Fin 2) = t.val ∧ win0_28.index t (1 : Fin 2) = 0 :=
  (by decide +kernel : ∀ t : Fin grid0.N,
    win0_0.index t (0 : Fin 2) = t.val ∧ win0_0.index t (1 : Fin 2) = 0
    ∧ win0_26.index t (0 : Fin 2) = t.val ∧ win0_26.index t (1 : Fin 2) = 0
    ∧ win0_27.index t (0 : Fin 2) = t.val ∧ win0_27.index t (1 : Fin 2) = 0
    ∧ win0_28.index t (0 : Fin 2) = t.val ∧ win0_28.index t (1 : Fin 2) = 0)

/-- Every weight's block stays at `(0, 0)`. -/
theorem still_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem still_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem still_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem still_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem still_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem still_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem still_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem still_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem still_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem still_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem still_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem still_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem still_14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem still_15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem still_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem still_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem still_18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
theorem still_19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
theorem still_20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)
theorem still_21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)
theorem still_22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)
theorem still_23 : ∀ t : Fin cfg0.N, win0_23.index t (0 : Fin 2) = 0 ∧ win0_23.index t (1 : Fin 2) = 0 :=
  (by decide +kernel : ∀ t : Fin grid0.N, win0_23.index t (0 : Fin 2) = 0 ∧ win0_23.index t (1 : Fin 2) = 0)
theorem still_24 : ∀ t : Fin cfg0.N, win0_24.index t (0 : Fin 2) = 0 ∧ win0_24.index t (1 : Fin 2) = 0 :=
  (by decide +kernel : ∀ t : Fin grid0.N, win0_24.index t (0 : Fin 2) = 0 ∧ win0_24.index t (1 : Fin 2) = 0)
theorem still_25 : ∀ t : Fin cfg0.N, win0_25.index t (0 : Fin 2) = 0 ∧ win0_25.index t (1 : Fin 2) = 0 :=
  (by decide +kernel : ∀ t : Fin grid0.N, win0_25.index t (0 : Fin 2) = 0 ∧ win0_25.index t (1 : Fin 2) = 0)

/-! ## The blocks -/

/-- The array row under row `p` of point `t`'s block. -/
def rowOf (t : Fin cfg0.N) (p : Fin 512) : Fin 65536 :=
  ⟨t.val * 512 + p.val, by
    have ht : t.val < 128 := Nat.lt_of_lt_of_eq t.isLt N_0
    have hp := p.isLt
    omega⟩

/-- Row `p` of the input block at point `t` is row `512 t + p` of the input matrix. -/
theorem row_block_0 (c : Dev nD) (t : Fin cfg0.N) (p : Fin 512) :
    row (iblk m c 0 t : S512x256.Idx → EReal) p = row (m ((c : Thread nD τ).loc main_arg0)) (rowOf t p) := by
  funext k
  show V m c main_arg0 (((cfg0.win 0).blk t).view.emb (ix2 p k)) = m ((c : Thread nD τ).loc main_arg0) (ix2 (rowOf t p) k)
  rw [V_main_arg0]
  refine congrArg _ ?_
  funext a; apply Fin.ext
  obtain ⟨e0, e1, -⟩ := moves t
  match a with
  | ⟨0, _⟩ => show win0_0.index t (0 : Fin 2) * 512 + 1 * p.val = t.val * 512 + p.val; rw [e0]; omega
  | ⟨1, _⟩ => show win0_0.index t (1 : Fin 2) * 256 + 1 * k.val = k.val; rw [e1]; omega

/-- Window 1's block is the whole of argument 1 at every point. -/
theorem block_1 (c : Dev nD) (t : Fin cfg0.N) : (iblk m c 1 t : S256x1024.Idx → EReal) = m ((c : Thread nD τ).loc main_arg1) := by
  funext y
  show V m c main_v0 (((cfg0.win 1).blk t).view.emb y) = _
  rw [entry_1]
  refine congrArg _ ?_
  funext a; apply Fin.ext
  obtain ⟨e0, e1⟩ := still_1 t
  match a with
  | ⟨0, _⟩ => show win0_1.index t (0 : Fin 2) * 256 + 1 * (y 0).val = (y 0).val; rw [e0]; omega
  | ⟨1, _⟩ => show win0_1.index t (1 : Fin 2) * 1024 + 1 * (y 1).val = (y 1).val; rw [e1]; omega
/-- Window 3's block is argument 3 laid as one row, at every point. -/
theorem block_3 (c : Dev nD) (t : Fin cfg0.N) :
    rowvec (iblk m c 3 t : S1x1024.Idx → EReal) = vec1 (m ((c : Thread nD τ).loc main_arg3)) := by
  funext j
  show V m c main_v14 (((cfg0.win 3).blk t).view.emb (ix2 (0 : Fin 1) j)) = _
  rw [entry_3]
  have he : ∀ y : S1x1024.Idx, ((cfg0.win 3).blk t).view.emb y = y := fun y => by
    funext a; apply Fin.ext
    obtain ⟨e0, e1⟩ := still_3 t
    match a with
    | ⟨0, _⟩ => show win0_3.index t (0 : Fin 2) * 1 + 1 * (y 0).val = (y 0).val; rw [e0]; omega
    | ⟨1, _⟩ => show win0_3.index t (1 : Fin 2) * 1024 + 1 * (y 1).val = (y 1).val; rw [e1]; omega
  rw [he]
  exact shapeCast_a_1a_apply _ _ (0 : Fin 1) j
/-- Window 4's block is the whole of argument 4 at every point. -/
theorem block_4 (c : Dev nD) (t : Fin cfg0.N) : (iblk m c 4 t : S256x1024.Idx → EReal) = m ((c : Thread nD τ).loc main_arg4) := by
  funext y
  show V m c main_v2 (((cfg0.win 4).blk t).view.emb y) = _
  rw [entry_4]
  refine congrArg _ ?_
  funext a; apply Fin.ext
  obtain ⟨e0, e1⟩ := still_4 t
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega
/-- Window 5's block is the whole of argument 5 at every point. -/
theorem block_5 (c : Dev nD) (t : Fin cfg0.N) : (iblk m c 5 t : S256x1024.Idx → EReal) = m ((c : Thread nD τ).loc main_arg5) := by
  funext y
  show V m c main_v3 (((cfg0.win 5).blk t).view.emb y) = _
  rw [entry_5]
  refine congrArg _ ?_
  funext a; apply Fin.ext
  obtain ⟨e0, e1⟩ := still_5 t
  match a with
  | ⟨0, _⟩ => show win0_5.index t (0 : Fin 2) * 256 + 1 * (y 0).val = (y 0).val; rw [e0]; omega
  | ⟨1, _⟩ => show win0_5.index t (1 : Fin 2) * 1024 + 1 * (y 1).val = (y 1).val; rw [e1]; omega
/-- Window 6's block is argument 6 laid as one row, at every point. -/
theorem block_6 (c : Dev nD) (t : Fin cfg0.N) :
    rowvec (iblk m c 6 t : S1x1024.Idx → EReal) = vec1 (m ((c : Thread nD τ).loc main_arg6)) := by
  funext j
  show V m c main_v15 (((cfg0.win 6).blk t).view.emb (ix2 (0 : Fin 1) j)) = _
  rw [entry_6]
  have he : ∀ y : S1x1024.Idx, ((cfg0.win 6).blk t).view.emb y = y := fun y => by
    funext a; apply Fin.ext
    obtain ⟨e0, e1⟩ := still_6 t
    match a with
    | ⟨0, _⟩ => show win0_6.index t (0 : Fin 2) * 1 + 1 * (y 0).val = (y 0).val; rw [e0]; omega
    | ⟨1, _⟩ => show win0_6.index t (1 : Fin 2) * 1024 + 1 * (y 1).val = (y 1).val; rw [e1]; omega
  rw [he]
  exact shapeCast_a_1a_apply _ _ (0 : Fin 1) j
/-- Window 7's block is the whole of argument 7 at every point. -/
theorem block_7 (c : Dev nD) (t : Fin cfg0.N) : (iblk m c 7 t : S256x1024.Idx → EReal) = m ((c : Thread nD τ).loc main_arg7) := by
  funext y
  show V m c main_v4 (((cfg0.win 7).blk t).view.emb y) = _
  rw [entry_7]
  refine congrArg _ ?_
  funext a; apply Fin.ext
  obtain ⟨e0, e1⟩ := still_7 t
  match a with
  | ⟨0, _⟩ => show win0_7.index t (0 : Fin 2) * 256 + 1 * (y 0).val = (y 0).val; rw [e0]; omega
  | ⟨1, _⟩ => show win0_7.index t (1 : Fin 2) * 1024 + 1 * (y 1).val = (y 1).val; rw [e1]; omega
/-- Window 8's block is the whole of argument 8 at every point. -/
theorem block_8 (c : Dev nD) (t : Fin cfg0.N) : (iblk m c 8 t : S256x1024.Idx → EReal) = m ((c : Thread nD τ).loc main_arg8) := by
  funext y
  show V m c main_v5 (((cfg0.win 8).blk t).view.emb y) = _
  rw [entry_8]
  refine congrArg _ ?_
  funext a; apply Fin.ext
  obtain ⟨e0, e1⟩ := still_8 t
  match a with
  | ⟨0, _⟩ => show win0_8.index t (0 : Fin 2) * 256 + 1 * (y 0).val = (y 0).val; rw [e0]; omega
  | ⟨1, _⟩ => show win0_8.index t (1 : Fin 2) * 1024 + 1 * (y 1).val = (y 1).val; rw [e1]; omega
/-- Window 9's block is argument 9 laid as one row, at every point. -/
theorem block_9 (c : Dev nD) (t : Fin cfg0.N) :
    rowvec (iblk m c 9 t : S1x1024.Idx → EReal) = vec1 (m ((c : Thread nD τ).loc main_arg9)) := by
  funext j
  show V m c main_v16 (((cfg0.win 9).blk t).view.emb (ix2 (0 : Fin 1) j)) = _
  rw [entry_9]
  have he : ∀ y : S1x1024.Idx, ((cfg0.win 9).blk t).view.emb y = y := fun y => by
    funext a; apply Fin.ext
    obtain ⟨e0, e1⟩ := still_9 t
    match a with
    | ⟨0, _⟩ => show win0_9.index t (0 : Fin 2) * 1 + 1 * (y 0).val = (y 0).val; rw [e0]; omega
    | ⟨1, _⟩ => show win0_9.index t (1 : Fin 2) * 1024 + 1 * (y 1).val = (y 1).val; rw [e1]; omega
  rw [he]
  exact shapeCast_a_1a_apply _ _ (0 : Fin 1) j
/-- Window 10's block is the whole of argument 10 at every point. -/
theorem block_10 (c : Dev nD) (t : Fin cfg0.N) : (iblk m c 10 t : S256x256.Idx → EReal) = m ((c : Thread nD τ).loc main_arg10) := by
  funext y
  show V m c main_v6 (((cfg0.win 10).blk t).view.emb y) = _
  rw [entry_10]
  refine congrArg _ ?_
  funext a; apply Fin.ext
  obtain ⟨e0, e1⟩ := still_10 t
  match a with
  | ⟨0, _⟩ => show win0_10.index t (0 : Fin 2) * 256 + 1 * (y 0).val = (y 0).val; rw [e0]; omega
  | ⟨1, _⟩ => show win0_10.index t (1 : Fin 2) * 256 + 1 * (y 1).val = (y 1).val; rw [e1]; omega
/-- Window 11's block is argument 11 laid as one row, at every point. -/
theorem block_11 (c : Dev nD) (t : Fin cfg0.N) :
    rowvec (iblk m c 11 t : S1x256.Idx → EReal) = vec1 (m ((c : Thread nD τ).loc main_arg11)) := by
  funext j
  show V m c main_v17 (((cfg0.win 11).blk t).view.emb (ix2 (0 : Fin 1) j)) = _
  rw [entry_11]
  have he : ∀ y : S1x256.Idx, ((cfg0.win 11).blk t).view.emb y = y := fun y => by
    funext a; apply Fin.ext
    obtain ⟨e0, e1⟩ := still_11 t
    match a with
    | ⟨0, _⟩ => show win0_11.index t (0 : Fin 2) * 1 + 1 * (y 0).val = (y 0).val; rw [e0]; omega
    | ⟨1, _⟩ => show win0_11.index t (1 : Fin 2) * 256 + 1 * (y 1).val = (y 1).val; rw [e1]; omega
  rw [he]
  exact shapeCast_a_1a_apply _ _ (0 : Fin 1) j
/-- Window 12's block is the whole of argument 12 at every point. -/
theorem block_12 (c : Dev nD) (t : Fin cfg0.N) : (iblk m c 12 t : S256x256.Idx → EReal) = m ((c : Thread nD τ).loc main_arg12) := by
  funext y
  show V m c main_v7 (((cfg0.win 12).blk t).view.emb y) = _
  rw [entry_12]
  refine congrArg _ ?_
  funext a; apply Fin.ext
  obtain ⟨e0, e1⟩ := still_12 t
  match a with
  | ⟨0, _⟩ => show win0_12.index t (0 : Fin 2) * 256 + 1 * (y 0).val = (y 0).val; rw [e0]; omega
  | ⟨1, _⟩ => show win0_12.index t (1 : Fin 2) * 256 + 1 * (y 1).val = (y 1).val; rw [e1]; omega
/-- Window 13's block is argument 13 laid as one row, at every point. -/
theorem block_13 (c : Dev nD) (t : Fin cfg0.N) :
    rowvec (iblk m c 13 t : S1x256.Idx → EReal) = vec1 (m ((c : Thread nD τ).loc main_arg13)) := by
  funext j
  show V m c main_v18 (((cfg0.win 13).blk t).view.emb (ix2 (0 : Fin 1) j)) = _
  rw [entry_13]
  have he : ∀ y : S1x256.Idx, ((cfg0.win 13).blk t).view.emb y = y := fun y => by
    funext a; apply Fin.ext
    obtain ⟨e0, e1⟩ := still_13 t
    match a with
    | ⟨0, _⟩ => show win0_13.index t (0 : Fin 2) * 1 + 1 * (y 0).val = (y 0).val; rw [e0]; omega
    | ⟨1, _⟩ => show win0_13.index t (1 : Fin 2) * 256 + 1 * (y 1).val = (y 1).val; rw [e1]; omega
  rw [he]
  exact shapeCast_a_1a_apply _ _ (0 : Fin 1) j
/-- Window 14's block is the whole of argument 14 at every point. -/
theorem block_14 (c : Dev nD) (t : Fin cfg0.N) : (iblk m c 14 t : S256x256.Idx → EReal) = m ((c : Thread nD τ).loc main_arg14) := by
  funext y
  show V m c main_v8 (((cfg0.win 14).blk t).view.emb y) = _
  rw [entry_14]
  refine congrArg _ ?_
  funext a; apply Fin.ext
  obtain ⟨e0, e1⟩ := still_14 t
  match a with
  | ⟨0, _⟩ => show win0_14.index t (0 : Fin 2) * 256 + 1 * (y 0).val = (y 0).val; rw [e0]; omega
  | ⟨1, _⟩ => show win0_14.index t (1 : Fin 2) * 256 + 1 * (y 1).val = (y 1).val; rw [e1]; omega
/-- Window 15's block is argument 15 laid as one row, at every point. -/
theorem block_15 (c : Dev nD) (t : Fin cfg0.N) :
    rowvec (iblk m c 15 t : S1x256.Idx → EReal) = vec1 (m ((c : Thread nD τ).loc main_arg15)) := by
  funext j
  show V m c main_v19 (((cfg0.win 15).blk t).view.emb (ix2 (0 : Fin 1) j)) = _
  rw [entry_15]
  have he : ∀ y : S1x256.Idx, ((cfg0.win 15).blk t).view.emb y = y := fun y => by
    funext a; apply Fin.ext
    obtain ⟨e0, e1⟩ := still_15 t
    match a with
    | ⟨0, _⟩ => show win0_15.index t (0 : Fin 2) * 1 + 1 * (y 0).val = (y 0).val; rw [e0]; omega
    | ⟨1, _⟩ => show win0_15.index t (1 : Fin 2) * 256 + 1 * (y 1).val = (y 1).val; rw [e1]; omega
  rw [he]
  exact shapeCast_a_1a_apply _ _ (0 : Fin 1) j
/-- Window 16's block is the whole of argument 20 at every point. -/
theorem block_16 (c : Dev nD) (t : Fin cfg0.N) : (iblk m c 16 t : S256x103.Idx → EReal) = m ((c : Thread nD τ).loc main_arg20) := by
  funext y
  show V m c main_v11 (((cfg0.win 16).blk t).view.emb y) = _
  rw [entry_16]
  refine congrArg _ ?_
  funext a; apply Fin.ext
  obtain ⟨e0, e1⟩ := still_16 t
  match a with
  | ⟨0, _⟩ => show win0_16.index t (0 : Fin 2) * 256 + 1 * (y 0).val = (y 0).val; rw [e0]; omega
  | ⟨1, _⟩ => show win0_16.index t (1 : Fin 2) * 103 + 1 * (y 1).val = (y 1).val; rw [e1]; omega
/-- Window 17's block is argument 21 laid as one row, at every point. -/
theorem block_17 (c : Dev nD) (t : Fin cfg0.N) :
    rowvec (iblk m c 17 t : S1x103.Idx → EReal) = vec1 (m ((c : Thread nD τ).loc main_arg21)) := by
  funext j
  show V m c main_v22 (((cfg0.win 17).blk t).view.emb (ix2 (0 : Fin 1) j)) = _
  rw [entry_17]
  have he : ∀ y : S1x103.Idx, ((cfg0.win 17).blk t).view.emb y = y := fun y => by
    funext a; apply Fin.ext
    obtain ⟨e0, e1⟩ := still_17 t
    match a with
    | ⟨0, _⟩ => show win0_17.index t (0 : Fin 2) * 1 + 1 * (y 0).val = (y 0).val; rw [e0]; omega
    | ⟨1, _⟩ => show win0_17.index t (1 : Fin 2) * 103 + 1 * (y 1).val = (y 1).val; rw [e1]; omega
  rw [he]
  exact shapeCast_a_1a_apply _ _ (0 : Fin 1) j
/-- Window 18's block is the whole of argument 16 at every point. -/
theorem block_18 (c : Dev nD) (t : Fin cfg0.N) : (iblk m c 18 t : S256x256.Idx → EReal) = m ((c : Thread nD τ).loc main_arg16) := by
  funext y
  show V m c main_v9 (((cfg0.win 18).blk t).view.emb y) = _
  rw [entry_18]
  refine congrArg _ ?_
  funext a; apply Fin.ext
  obtain ⟨e0, e1⟩ := still_18 t
  match a with
  | ⟨0, _⟩ => show win0_18.index t (0 : Fin 2) * 256 + 1 * (y 0).val = (y 0).val; rw [e0]; omega
  | ⟨1, _⟩ => show win0_18.index t (1 : Fin 2) * 256 + 1 * (y 1).val = (y 1).val; rw [e1]; omega
/-- Window 19's block is argument 17 laid as one row, at every point. -/
theorem block_19 (c : Dev nD) (t : Fin cfg0.N) :
    rowvec (iblk m c 19 t : S1x256.Idx → EReal) = vec1 (m ((c : Thread nD τ).loc main_arg17)) := by
  funext j
  show V m c main_v20 (((cfg0.win 19).blk t).view.emb (ix2 (0 : Fin 1) j)) = _
  rw [entry_19]
  have he : ∀ y : S1x256.Idx, ((cfg0.win 19).blk t).view.emb y = y := fun y => by
    funext a; apply Fin.ext
    obtain ⟨e0, e1⟩ := still_19 t
    match a with
    | ⟨0, _⟩ => show win0_19.index t (0 : Fin 2) * 1 + 1 * (y 0).val = (y 0).val; rw [e0]; omega
    | ⟨1, _⟩ => show win0_19.index t (1 : Fin 2) * 256 + 1 * (y 1).val = (y 1).val; rw [e1]; omega
  rw [he]
  exact shapeCast_a_1a_apply _ _ (0 : Fin 1) j
/-- Window 20's block is the whole of argument 22 at every point. -/
theorem block_20 (c : Dev nD) (t : Fin cfg0.N) : (iblk m c 20 t : S256x119.Idx → EReal) = m ((c : Thread nD τ).loc main_arg22) := by
  funext y
  show V m c main_v12 (((cfg0.win 20).blk t).view.emb y) = _
  rw [entry_20]
  refine congrArg _ ?_
  funext a; apply Fin.ext
  obtain ⟨e0, e1⟩ := still_20 t
  match a with
  | ⟨0, _⟩ => show win0_20.index t (0 : Fin 2) * 256 + 1 * (y 0).val = (y 0).val; rw [e0]; omega
  | ⟨1, _⟩ => show win0_20.index t (1 : Fin 2) * 119 + 1 * (y 1).val = (y 1).val; rw [e1]; omega
/-- Window 21's block is argument 23 laid as one row, at every point. -/
theorem block_21 (c : Dev nD) (t : Fin cfg0.N) :
    rowvec (iblk m c 21 t : S1x119.Idx → EReal) = vec1 (m ((c : Thread nD τ).loc main_arg23)) := by
  funext j
  show V m c main_v23 (((cfg0.win 21).blk t).view.emb (ix2 (0 : Fin 1) j)) = _
  rw [entry_21]
  have he : ∀ y : S1x119.Idx, ((cfg0.win 21).blk t).view.emb y = y := fun y => by
    funext a; apply Fin.ext
    obtain ⟨e0, e1⟩ := still_21 t
    match a with
    | ⟨0, _⟩ => show win0_21.index t (0 : Fin 2) * 1 + 1 * (y 0).val = (y 0).val; rw [e0]; omega
    | ⟨1, _⟩ => show win0_21.index t (1 : Fin 2) * 119 + 1 * (y 1).val = (y 1).val; rw [e1]; omega
  rw [he]
  exact shapeCast_a_1a_apply _ _ (0 : Fin 1) j
/-- Window 22's block is the whole of argument 18 at every point. -/
theorem block_22 (c : Dev nD) (t : Fin cfg0.N) : (iblk m c 22 t : S256x256.Idx → EReal) = m ((c : Thread nD τ).loc main_arg18) := by
  funext y
  show V m c main_v10 (((cfg0.win 22).blk t).view.emb y) = _
  rw [entry_22]
  refine congrArg _ ?_
  funext a; apply Fin.ext
  obtain ⟨e0, e1⟩ := still_22 t
  match a with
  | ⟨0, _⟩ => show win0_22.index t (0 : Fin 2) * 256 + 1 * (y 0).val = (y 0).val; rw [e0]; omega
  | ⟨1, _⟩ => show win0_22.index t (1 : Fin 2) * 256 + 1 * (y 1).val = (y 1).val; rw [e1]; omega
/-- Window 23's block is argument 19 laid as one row, at every point. -/
theorem block_23 (c : Dev nD) (t : Fin cfg0.N) :
    rowvec (iblk m c 23 t : S1x256.Idx → EReal) = vec1 (m ((c : Thread nD τ).loc main_arg19)) := by
  funext j
  show V m c main_v21 (((cfg0.win 23).blk t).view.emb (ix2 (0 : Fin 1) j)) = _
  rw [entry_23]
  have he : ∀ y : S1x256.Idx, ((cfg0.win 23).blk t).view.emb y = y := fun y => by
    funext a; apply Fin.ext
    obtain ⟨e0, e1⟩ := still_23 t
    match a with
    | ⟨0, _⟩ => show win0_23.index t (0 : Fin 2) * 1 + 1 * (y 0).val = (y 0).val; rw [e0]; omega
    | ⟨1, _⟩ => show win0_23.index t (1 : Fin 2) * 256 + 1 * (y 1).val = (y 1).val; rw [e1]; omega
  rw [he]
  exact shapeCast_a_1a_apply _ _ (0 : Fin 1) j
/-- Window 24's block is the whole of argument 24 at every point. -/
theorem block_24 (c : Dev nD) (t : Fin cfg0.N) : (iblk m c 24 t : S256x12.Idx → EReal) = m ((c : Thread nD τ).loc main_arg24) := by
  funext y
  show V m c main_v13 (((cfg0.win 24).blk t).view.emb y) = _
  rw [entry_24]
  refine congrArg _ ?_
  funext a; apply Fin.ext
  obtain ⟨e0, e1⟩ := still_24 t
  match a with
  | ⟨0, _⟩ => show win0_24.index t (0 : Fin 2) * 256 + 1 * (y 0).val = (y 0).val; rw [e0]; omega
  | ⟨1, _⟩ => show win0_24.index t (1 : Fin 2) * 12 + 1 * (y 1).val = (y 1).val; rw [e1]; omega
/-- Window 25's block is argument 25 laid as one row, at every point. -/
theorem block_25 (c : Dev nD) (t : Fin cfg0.N) :
    rowvec (iblk m c 25 t : S1x12.Idx → EReal) = vec1 (m ((c : Thread nD τ).loc main_arg25)) := by
  funext j
  show V m c main_v24 (((cfg0.win 25).blk t).view.emb (ix2 (0 : Fin 1) j)) = _
  rw [entry_25]
  have he : ∀ y : S1x12.Idx, ((cfg0.win 25).blk t).view.emb y = y := fun y => by
    funext a; apply Fin.ext
    obtain ⟨e0, e1⟩ := still_25 t
    match a with
    | ⟨0, _⟩ => show win0_25.index t (0 : Fin 2) * 1 + 1 * (y 0).val = (y 0).val; rw [e0]; omega
    | ⟨1, _⟩ => show win0_25.index t (1 : Fin 2) * 12 + 1 * (y 1).val = (y 1).val; rw [e1]; omega
  rw [he]
  exact shapeCast_a_1a_apply _ _ (0 : Fin 1) j

/-- The weights read off the argument arrays. -/
def argParams (c : Dev nD) : Params :=
  arrayParams
    (m ((c : Thread nD τ).loc main_arg1))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))

/-- At every point the weights the body's loaded blocks hold are the arguments'. -/
theorem params_eq (c : Dev nD) (t : Fin cfg0.N) :
    blockParams (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) = argParams m c := by
  unfold blockParams argParams arrayParams
  rw [block_1 m c t, block_3 m c t, block_4 m c t, block_5 m c t, block_6 m c t, block_7 m c t, block_8 m c t, block_9 m c t, block_10 m c t, block_11 m c t, block_12 m c t, block_13 m c t, block_14 m c t, block_15 m c t, block_16 m c t, block_17 m c t, block_18 m c t, block_19 m c t, block_20 m c t, block_21 m c t, block_22 m c t, block_23 m c t, block_24 m c t, block_25 m c t]

/-! ## Result window 26 -/

/-- What point `t` writes back is block `t` of `G1` of the arguments. -/
theorem flushed26_eq (c : Dev nD) (t : Fin cfg0.N) :
    (dats m 0 c).flushed 26 t
      = ((cfg0.win 26).blk t).view.read (Elt Ideal) (G1 (m ((c : Thread nD τ).loc main_arg0)) (argParams m c)) := by
  show (cfg0.win 26).cut (grid0.coords t) ((dats m 0 c).after 26 t) = _
  rw [after0_26]
  refine ext2 (a := 512) (b := 103) fun p q => ?_
  show row (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) p q
      = G1 (m ((c : Thread nD τ).loc main_arg0)) (argParams m c) (((cfg0.win 26).blk t).view.emb (ix2 p q))
  rw [out26_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p, params_eq m c t, row_block_0 m c t p]
  have he : ((cfg0.win 26).blk t).view.emb (ix2 p q) = ix2 (rowOf t p) q := by
    funext a; apply Fin.ext
    obtain ⟨e0, e1, e2, e3, e4, e5, e6, e7⟩ := moves t
    match a with
    | ⟨0, _⟩ => show win0_26.index t (0 : Fin 2) * 512 + 1 * p.val = t.val * 512 + p.val; rw [e2]; omega
    | ⟨1, _⟩ => show win0_26.index t (1 : Fin 2) * 103 + 1 * q.val = q.val; rw [e3]; omega
  rw [he]
  rfl

/-- An index of the result array is in point `t`'s block iff each coordinate is in the block's range on its axis. -/
theorem mem_blk26 (t : Fin cfg0.N) (i : S65536x103.Idx) :
    i ∈ ((cfg0.win 26).blk t).view.set ↔ ∀ a : Fin 2, win0_26.index t a * S512x103.size a ≤ (i a).val
      ∧ (i a).val < win0_26.index t a * S512x103.size a + S512x103.size a := by
  show i ∈ ((View.whole main_v25_0).slice (win0_26.rect t)).set ↔ _
  rw [View.set_slice_whole, Rect.mem_set_unit]
  exact Iff.rfl

/-- Every row of the result array lies in the block of the point `row / 512`. -/
theorem cover26 (i : S65536x103.Idx) :
    ∃ t : Fin cfg0.N, (cfg0.win 26).flush t = true ∧ i ∈ ((cfg0.win 26).blk t).view.set := by
  have h0 : (i 0).val < 65536 := (i 0).isLt
  have h1 : (i 1).val < 103 := (i 1).isLt
  have hN : grid0.N = 128 := N_0
  let t : Fin cfg0.N := ⟨(i 0).val / 512, by show (i 0).val / 512 < grid0.N; rw [hN]; omega⟩
  have ht : t.val = (i 0).val / 512 := rfl
  refine ⟨t, flush0_26 t, ?_⟩
  rw [mem_blk26]
  obtain ⟨e0, e1, e2, e3, e4, e5, e6, e7⟩ := moves t
  intro a
  match a with
  | ⟨0, _⟩ =>
    show win0_26.index t (0 : Fin 2) * 512 ≤ (i 0).val ∧ (i 0).val < win0_26.index t (0 : Fin 2) * 512 + 512
    rw [e2, ht]; omega
  | ⟨1, _⟩ =>
    show win0_26.index t (1 : Fin 2) * 103 ≤ (i 1).val ∧ (i 1).val < win0_26.index t (1 : Fin 2) * 103 + 103
    rw [e3]; omega

/-- The result array after the run. -/
theorem final26 (c : Dev nD) :
    (dats m 0 c).arrAt 26 cfg0.N = G1 (m ((c : Thread nD τ).loc main_arg0)) (argParams m c) :=
  (dats m 0 c).arrAt_eq_of_cover 26 _ (fun t _ => flushed26_eq m c t) (cover26)

/-! ## Result window 27 -/

/-- What point `t` writes back is block `t` of `G2` of the arguments. -/
theorem flushed27_eq (c : Dev nD) (t : Fin cfg0.N) :
    (dats m 0 c).flushed 27 t
      = ((cfg0.win 27).blk t).view.read (Elt Ideal) (G2 (m ((c : Thread nD τ).loc main_arg0)) (argParams m c)) := by
  show (cfg0.win 27).cut (grid0.coords t) ((dats m 0 c).after 27 t) = _
  rw [after0_27]
  refine ext2 (a := 512) (b := 119) fun p q => ?_
  show row (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) p q
      = G2 (m ((c : Thread nD τ).loc main_arg0)) (argParams m c) (((cfg0.win 27).blk t).view.emb (ix2 p q))
  rw [out27_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p, params_eq m c t, row_block_0 m c t p]
  have he : ((cfg0.win 27).blk t).view.emb (ix2 p q) = ix2 (rowOf t p) q := by
    funext a; apply Fin.ext
    obtain ⟨e0, e1, e2, e3, e4, e5, e6, e7⟩ := moves t
    match a with
    | ⟨0, _⟩ => show win0_27.index t (0 : Fin 2) * 512 + 1 * p.val = t.val * 512 + p.val; rw [e4]; omega
    | ⟨1, _⟩ => show win0_27.index t (1 : Fin 2) * 119 + 1 * q.val = q.val; rw [e5]; omega
  rw [he]
  rfl

/-- An index of the result array is in point `t`'s block iff each coordinate is in the block's range on its axis. -/
theorem mem_blk27 (t : Fin cfg0.N) (i : S65536x119.Idx) :
    i ∈ ((cfg0.win 27).blk t).view.set ↔ ∀ a : Fin 2, win0_27.index t a * S512x119.size a ≤ (i a).val
      ∧ (i a).val < win0_27.index t a * S512x119.size a + S512x119.size a := by
  show i ∈ ((View.whole main_v25_1).slice (win0_27.rect t)).set ↔ _
  rw [View.set_slice_whole, Rect.mem_set_unit]
  exact Iff.rfl

/-- Every row of the result array lies in the block of the point `row / 512`. -/
theorem cover27 (i : S65536x119.Idx) :
    ∃ t : Fin cfg0.N, (cfg0.win 27).flush t = true ∧ i ∈ ((cfg0.win 27).blk t).view.set := by
  have h0 : (i 0).val < 65536 := (i 0).isLt
  have h1 : (i 1).val < 119 := (i 1).isLt
  have hN : grid0.N = 128 := N_0
  let t : Fin cfg0.N := ⟨(i 0).val / 512, by show (i 0).val / 512 < grid0.N; rw [hN]; omega⟩
  have ht : t.val = (i 0).val / 512 := rfl
  refine ⟨t, flush0_27 t, ?_⟩
  rw [mem_blk27]
  obtain ⟨e0, e1, e2, e3, e4, e5, e6, e7⟩ := moves t
  intro a
  match a with
  | ⟨0, _⟩ =>
    show win0_27.index t (0 : Fin 2) * 512 ≤ (i 0).val ∧ (i 0).val < win0_27.index t (0 : Fin 2) * 512 + 512
    rw [e4, ht]; omega
  | ⟨1, _⟩ =>
    show win0_27.index t (1 : Fin 2) * 119 ≤ (i 1).val ∧ (i 1).val < win0_27.index t (1 : Fin 2) * 119 + 119
    rw [e5]; omega

/-- The result array after the run. -/
theorem final27 (c : Dev nD) :
    (dats m 0 c).arrAt 27 cfg0.N = G2 (m ((c : Thread nD τ).loc main_arg0)) (argParams m c) :=
  (dats m 0 c).arrAt_eq_of_cover 27 _ (fun t _ => flushed27_eq m c t) (cover27)

/-! ## Result window 28 -/

/-- What point `t` writes back is block `t` of `G3` of the arguments. -/
theorem flushed28_eq (c : Dev nD) (t : Fin cfg0.N) :
    (dats m 0 c).flushed 28 t
      = ((cfg0.win 28).blk t).view.read (Elt Ideal) (G3 (m ((c : Thread nD τ).loc main_arg0)) (argParams m c)) := by
  show (cfg0.win 28).cut (grid0.coords t) ((dats m 0 c).after 28 t) = _
  rw [after0_28]
  refine ext2 (a := 512) (b := 12) fun p q => ?_
  show row (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) p q
      = G3 (m ((c : Thread nD τ).loc main_arg0)) (argParams m c) (((cfg0.win 28).blk t).view.emb (ix2 p q))
  rw [out28_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p, params_eq m c t, row_block_0 m c t p]
  have he : ((cfg0.win 28).blk t).view.emb (ix2 p q) = ix2 (rowOf t p) q := by
    funext a; apply Fin.ext
    obtain ⟨e0, e1, e2, e3, e4, e5, e6, e7⟩ := moves t
    match a with
    | ⟨0, _⟩ => show win0_28.index t (0 : Fin 2) * 512 + 1 * p.val = t.val * 512 + p.val; rw [e6]; omega
    | ⟨1, _⟩ => show win0_28.index t (1 : Fin 2) * 12 + 1 * q.val = q.val; rw [e7]; omega
  rw [he]
  rfl

/-- An index of the result array is in point `t`'s block iff each coordinate is in the block's range on its axis. -/
theorem mem_blk28 (t : Fin cfg0.N) (i : S65536x12.Idx) :
    i ∈ ((cfg0.win 28).blk t).view.set ↔ ∀ a : Fin 2, win0_28.index t a * S512x12.size a ≤ (i a).val
      ∧ (i a).val < win0_28.index t a * S512x12.size a + S512x12.size a := by
  show i ∈ ((View.whole main_v25_2).slice (win0_28.rect t)).set ↔ _
  rw [View.set_slice_whole, Rect.mem_set_unit]
  exact Iff.rfl

/-- Every row of the result array lies in the block of the point `row / 512`. -/
theorem cover28 (i : S65536x12.Idx) :
    ∃ t : Fin cfg0.N, (cfg0.win 28).flush t = true ∧ i ∈ ((cfg0.win 28).blk t).view.set := by
  have h0 : (i 0).val < 65536 := (i 0).isLt
  have h1 : (i 1).val < 12 := (i 1).isLt
  have hN : grid0.N = 128 := N_0
  let t : Fin cfg0.N := ⟨(i 0).val / 512, by show (i 0).val / 512 < grid0.N; rw [hN]; omega⟩
  have ht : t.val = (i 0).val / 512 := rfl
  refine ⟨t, flush0_28 t, ?_⟩
  rw [mem_blk28]
  obtain ⟨e0, e1, e2, e3, e4, e5, e6, e7⟩ := moves t
  intro a
  match a with
  | ⟨0, _⟩ =>
    show win0_28.index t (0 : Fin 2) * 512 ≤ (i 0).val ∧ (i 0).val < win0_28.index t (0 : Fin 2) * 512 + 512
    rw [e6, ht]; omega
  | ⟨1, _⟩ =>
    show win0_28.index t (1 : Fin 2) * 12 ≤ (i 1).val ∧ (i 1).val < win0_28.index t (1 : Fin 2) * 12 + 12
    rw [e7]; omega

/-- The result array after the run. -/
theorem final28 (c : Dev nD) :
    (dats m 0 c).arrAt 28 cfg0.N = G3 (m ((c : Thread nD τ).loc main_arg0)) (argParams m c) :=
  (dats m 0 c).arrAt_eq_of_cover 28 _ (fun t _ => flushed28_eq m c t) (cover28)

/-! ## The run, read -/

/-- After the frame run the input matrix is as launched: window 0 stages it and never writes it back. -/
theorem kept_0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the frame run argument 1 is as launched: no window stages it. -/
theorem kept_1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the frame run argument 2 is as launched: no window stages it. -/
theorem kept_2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the frame run argument 3 is as launched: no window stages it. -/
theorem kept_3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the frame run argument 4 is as launched: no window stages it. -/
theorem kept_4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the frame run argument 5 is as launched: no window stages it. -/
theorem kept_5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the frame run argument 6 is as launched: no window stages it. -/
theorem kept_6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the frame run argument 7 is as launched: no window stages it. -/
theorem kept_7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the frame run argument 8 is as launched: no window stages it. -/
theorem kept_8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the frame run argument 9 is as launched: no window stages it. -/
theorem kept_9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the frame run argument 10 is as launched: no window stages it. -/
theorem kept_10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- After the frame run argument 11 is as launched: no window stages it. -/
theorem kept_11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
/-- After the frame run argument 12 is as launched: no window stages it. -/
theorem kept_12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
/-- After the frame run argument 13 is as launched: no window stages it. -/
theorem kept_13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
/-- After the frame run argument 14 is as launched: no window stages it. -/
theorem kept_14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
/-- After the frame run argument 15 is as launched: no window stages it. -/
theorem kept_15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
/-- After the frame run argument 16 is as launched: no window stages it. -/
theorem kept_16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
/-- After the frame run argument 17 is as launched: no window stages it. -/
theorem kept_17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
/-- After the frame run argument 18 is as launched: no window stages it. -/
theorem kept_18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
/-- After the frame run argument 19 is as launched: no window stages it. -/
theorem kept_19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
/-- After the frame run argument 20 is as launched: no window stages it. -/
theorem kept_20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)
/-- After the frame run argument 21 is as launched: no window stages it. -/
theorem kept_21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)
/-- After the frame run argument 22 is as launched: no window stages it. -/
theorem kept_22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)
/-- After the frame run argument 23 is as launched: no window stages it. -/
theorem kept_23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)
/-- After the frame run argument 24 is as launched: no window stages it. -/
theorem kept_24 (r : PUnit × MemSt nD τ sig (Elt Ideal)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)
/-- After the frame run argument 25 is as launched: no window stages it. -/
theorem kept_25 (r : PUnit × MemSt nD τ sig (Elt Ideal)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- The kernel's run: the three result arrays end as `G1`, `G2`, `G3` of the arguments, the arguments unchanged. -/
theorem run : θ_run defs (onTc (τ := τ) (main (F := Ideal))) ⟨m, fun _ => 0, ρ⟩ fun r => ∀ c : Dev nD,
      r.2.mem ((c : Thread nD τ).loc main_v25_0) = G1 (m ((c : Thread nD τ).loc main_arg0)) (argParams m c)
      ∧ r.2.mem ((c : Thread nD τ).loc main_v25_1) = G2 (m ((c : Thread nD τ).loc main_arg0)) (argParams m c)
      ∧ r.2.mem ((c : Thread nD τ).loc main_v25_2) = G3 (m ((c : Thread nD τ).loc main_arg0)) (argParams m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨((h c).1 26).trans (final26 m c), ((h c).1 27).trans (final27 m c),
      ((h c).1 28).trans (final28 m c),
      kept_0 m r h c,
      kept_1 m r h c,
      kept_2 m r h c,
      kept_3 m r h c,
      kept_4 m r h c,
      kept_5 m r h c,
      kept_6 m r h c,
      kept_7 m r h c,
      kept_8 m r h c,
      kept_9 m r h c,
      kept_10 m r h c,
      kept_11 m r h c,
      kept_12 m r h c,
      kept_13 m r h c,
      kept_14 m r h c,
      kept_15 m r h c,
      kept_16 m r h c,
      kept_17 m r h c,
      kept_18 m r h c,
      kept_19 m r h c,
      kept_20 m r h c,
      kept_21 m r h c,
      kept_22 m r h c,
      kept_23 m r h c,
      kept_24 m r h c,
      kept_25 m r h c⟩)
    (run_main m ρ)

end Cert.KernelIdeal.RowValue

end
-- ==== Proof.RefCells.lean ====
/-
  The reference's three gated cells, row by row.

  The reference computes on whole arrays of 65536 rows; each of its stages is again a matrix whose row `r` depends on
  row `r` of the input only. Task 1's cell is run from zero hidden and cell states that the program really forms (a
  zero matrix times `Wr₁`, a forget gate times a zero matrix): both vanish on the extended reals (`pre2_zero`,
  `cellc_zero`), whatever `Wr₁` holds. The logistic function is spelt `1 / (1 + exp (-t))` throughout.
-/
import proofs.«176691_j9079560863839_1_alg».proof.Proof.Gen.ReferenceIdeal.Read
import proofs.«176691_j9079560863839_1_alg».proof.Proof.LibRowLayers

noncomputable section

namespace Cert.ReferenceIdeal.RowValue

open Cert.ReferenceIdeal Cert.ReferenceIdeal.Gen Cert.ReferenceIdeal.Read Idealize.ShloMosaic Idealize.ShloMosaic.ValueIdx
open Cert.Spec Cert.LibRowLayers

theorem plain_1024 : Plain dot_S65536x256_S256x1024_S65536x1024_1_0_0_1_n_n := ⟨rfl, rfl, rfl, rfl, rfl, rfl⟩
theorem plain_256 : Plain dot_S65536x256_S256x256_S65536x256_1_0_0_1_n_n := ⟨rfl, rfl, rfl, rfl, rfl, rfl⟩

variable (x0 : FVec Ideal S65536x256 .f32) (x1 x2 : FVec Ideal S256x1024 .f32) (x3 : FVec Ideal S1024 .f32)
  (x4 x5 : FVec Ideal S256x1024 .f32) (x6 : FVec Ideal S1024 .f32) (x7 x8 : FVec Ideal S256x1024 .f32) (x9 : FVec Ideal S1024 .f32)
  (x10 : FVec Ideal S256x256 .f32) (x11 : FVec Ideal S256 .f32) (x12 : FVec Ideal S256x256 .f32) (x13 : FVec Ideal S256 .f32) (r : Fin 65536)

/-- The zero state: every row of the spread zero constant is zero. -/
theorem row_zero : row (val_main_v0 (F := Ideal)) r = fun _ => (0 : EReal) := by
  unfold val_main_v0 val_main_cst
  rw [splat_row]
  funext _
  exact Ideal.ofBits_zero_f32

/-! ## Task 1 -/

/-- `z₁ = (X·Wk₁ + 0·Wr₁) + b₁ = X·Wk₁ + b₁`. -/
theorem row_z1 : row (val_main_v6 (F := Ideal) x0 x1 x2 x3) r = pre1 (row x0 r) (mat x1) (vec1 x3) := by
  unfold val_main_v6 val_main_v3 val_main_v1 val_main_v2 val_main_v5 val_main_v4
  rw [hpre2_row _ plain_1024, row_zero, pre2_zero]

/-- `c₁ = σ(f₁)·0 + σ(i₁)·tanh(g₁) = σ(i₁)·tanh(g₁)`. -/
theorem row_c1 : row (val_main_v26 (F := Ideal) x0 x1 x2 x3) r = cellc0 (pre1 (row x0 r) (mat x1) (vec1 x3)) := by
  unfold val_main_v26 val_main_v17 val_main_v16 val_main_v15 val_main_cst_1 val_main_v14 val_main_v13 val_main_cst_0
    val_main_v12 val_main_v11 val_main_v8 val_main_v25 val_main_v23 val_main_v22 val_main_cst_3 val_main_v21 val_main_v20
    val_main_cst_2 val_main_v19 val_main_v18 val_main_v7 val_main_v24 val_main_v9
  rw [hcellc_row, row_z1, row_zero, cellc_zero]

/-- `h₁ = σ(o₁)·tanh(c₁)`. -/
theorem row_h1 : row (val_main_v34 (F := Ideal) x0 x1 x2 x3) r
    = cellh (pre1 (row x0 r) (mat x1) (vec1 x3)) (cellc0 (pre1 (row x0 r) (mat x1) (vec1 x3))) := by
  unfold val_main_v34 val_main_v32 val_main_v31 val_main_cst_5 val_main_v30 val_main_v29 val_main_cst_4 val_main_v28
    val_main_v27 val_main_v10 val_main_v33
  rw [hcellh_row, row_z1, row_c1]

/-! ## Task 2 -/

/-- `z₂ = (X·Wk₂ + h₁·Wr₂) + b₂`. -/
theorem row_z2 : row (val_main_v40 (F := Ideal) x0 x1 x2 x3 x4 x5 x6) r
    = pre2 (row x0 r) (row (val_main_v34 (F := Ideal) x0 x1 x2 x3) r) (mat x4) (mat x5) (vec1 x6) := by
  unfold val_main_v40 val_main_v37 val_main_v35 val_main_v36 val_main_v39 val_main_v38
  rw [hpre2_row _ plain_1024]

/-- `c₂ = σ(f₂)·c₁ + σ(i₂)·tanh(g₂)`. -/
theorem row_c2 : row (val_main_v60 (F := Ideal) x0 x1 x2 x3 x4 x5 x6) r
    = cellc (row (val_main_v40 (F := Ideal) x0 x1 x2 x3 x4 x5 x6) r) (row (val_main_v26 (F := Ideal) x0 x1 x2 x3) r) := by
  unfold val_main_v60 val_main_v51 val_main_v50 val_main_v49 val_main_cst_7 val_main_v48 val_main_v47 val_main_cst_6
    val_main_v46 val_main_v45 val_main_v42 val_main_v59 val_main_v57 val_main_v56 val_main_cst_9 val_main_v55 val_main_v54
    val_main_cst_8 val_main_v53 val_main_v52 val_main_v41 val_main_v58 val_main_v43
  rw [hcellc_row]

/-- `h₂ = σ(o₂)·tanh(c₂)`. -/
theorem row_h2 : row (val_main_v68 (F := Ideal) x0 x1 x2 x3 x4 x5 x6) r
    = cellh (row (val_main_v40 (F := Ideal) x0 x1 x2 x3 x4 x5 x6) r) (row (val_main_v60 (F := Ideal) x0 x1 x2 x3 x4 x5 x6) r) := by
  unfold val_main_v68 val_main_v66 val_main_v65 val_main_cst_11 val_main_v64 val_main_v63 val_main_cst_10 val_main_v62
    val_main_v61 val_main_v44 val_main_v67
  rw [hcellh_row]

/-! ## Task 3 -/

/-- The hidden state handed on: `(h₁ + h₂·Wh) + bh`. -/
theorem row_h3in : row (val_main_v73 (F := Ideal) x0 x1 x2 x3 x4 x5 x6 x10 x11) r
    = prop (row (val_main_v34 (F := Ideal) x0 x1 x2 x3) r) (row (val_main_v68 (F := Ideal) x0 x1 x2 x3 x4 x5 x6) r)
        (mat x10) (vec1 x11) := by
  unfold val_main_v73 val_main_v70 val_main_v69 val_main_v72 val_main_v71
  rw [hprop_row _ plain_256]

/-- The cell state handed on: `(c₁ + c₂·Wc) + bc`. -/
theorem row_c3in : row (val_main_v78 (F := Ideal) x0 x1 x2 x3 x4 x5 x6 x12 x13) r
    = prop (row (val_main_v26 (F := Ideal) x0 x1 x2 x3) r) (row (val_main_v60 (F := Ideal) x0 x1 x2 x3 x4 x5 x6) r)
        (mat x12) (vec1 x13) := by
  unfold val_main_v78 val_main_v75 val_main_v74 val_main_v77 val_main_v76
  rw [hprop_row _ plain_256]

/-- `z₃ = (X·Wk₃ + h₃ᵢₙ·Wr₃) + b₃`. -/
theorem row_z3 : row (val_main_v84 (F := Ideal) x0 x1 x2 x3 x4 x5 x6 x7 x8 x9 x10 x11) r
    = pre2 (row x0 r) (row (val_main_v73 (F := Ideal) x0 x1 x2 x3 x4 x5 x6 x10 x11) r) (mat x7) (mat x8) (vec1 x9) := by
  unfold val_main_v84 val_main_v81 val_main_v79 val_main_v80 val_main_v83 val_main_v82
  rw [hpre2_row _ plain_1024]

/-- `c₃ = σ(f₃)·c₃ᵢₙ + σ(i₃)·tanh(g₃)`. -/
theorem row_c3 : row (val_main_v104 (F := Ideal) x0 x1 x2 x3 x4 x5 x6 x7 x8 x9 x10 x11 x12 x13) r
    = cellc (row (val_main_v84 (F := Ideal) x0 x1 x2 x3 x4 x5 x6 x7 x8 x9 x10 x11) r)
        (row (val_main_v78 (F := Ideal) x0 x1 x2 x3 x4 x5 x6 x12 x13) r) := by
  unfold val_main_v104 val_main_v95 val_main_v94 val_main_v93 val_main_cst_13 val_main_v92 val_main_v91 val_main_cst_12
    val_main_v90 val_main_v89 val_main_v86 val_main_v103 val_main_v101 val_main_v100 val_main_cst_15 val_main_v99 val_main_v98
    val_main_cst_14 val_main_v97 val_main_v96 val_main_v85 val_main_v102 val_main_v87
  rw [hcellc_row]

/-- `h₃ = σ(o₃)·tanh(c₃)`. -/
theorem row_h3 : row (val_main_v112 (F := Ideal) x0 x1 x2 x3 x4 x5 x6 x7 x8 x9 x10 x11 x12 x13) r
    = cellh (row (val_main_v84 (F := Ideal) x0 x1 x2 x3 x4 x5 x6 x7 x8 x9 x10 x11) r)
        (row (val_main_v104 (F := Ideal) x0 x1 x2 x3 x4 x5 x6 x7 x8 x9 x10 x11 x12 x13) r) := by
  unfold val_main_v112 val_main_v110 val_main_v109 val_main_cst_17 val_main_v108 val_main_v107 val_main_cst_16 val_main_v106
    val_main_v105 val_main_v88 val_main_v111
  rw [hcellh_row]

end Cert.ReferenceIdeal.RowValue

end
-- ==== Proof.RefHeads.lean ====
/-
  The reference's three classifiers and its three results as whole arrays.

  Each classifier is `relu(H·Wm + bm)·Wo + bo` on a hidden-state matrix `H` of 65536 rows: row `r` of it is `head` of
  row `r` of `H`. Put after the cells of RefCells.lean, row `r` of each result is the network of Spec.lean on row `r` of
  the input, over the weights read off the argument arrays — `ref_out1`, `ref_out2`, `ref_out3` say so of the whole
  arrays (`Spec.G1`, `G2`, `G3`). The second recurrent matrix of task 1, `Wr₁`, is an argument of every stage and of
  no result: it only ever multiplies the zero state.
-/
import proofs.«176691_j9079560863839_1_alg».proof.Proof.RefCells

noncomputable section

namespace Cert.ReferenceIdeal.RowValue

open Cert.ReferenceIdeal Cert.ReferenceIdeal.Gen Cert.ReferenceIdeal.Read Idealize.ShloMosaic Idealize.ShloMosaic.ValueIdx
open Cert.Spec Cert.LibRowLayers

theorem plain_103 : Plain dot_S65536x256_S256x103_S65536x103_1_0_0_1_n_n := ⟨rfl, rfl, rfl, rfl, rfl, rfl⟩
theorem plain_119 : Plain dot_S65536x256_S256x119_S65536x119_1_0_0_1_n_n := ⟨rfl, rfl, rfl, rfl, rfl, rfl⟩
theorem plain_12 : Plain dot_S65536x256_S256x12_S65536x12_1_0_0_1_n_n := ⟨rfl, rfl, rfl, rfl, rfl, rfl⟩

variable (x0 : FVec Ideal S65536x256 .f32) (x1 x2 : FVec Ideal S256x1024 .f32) (x3 : FVec Ideal S1024 .f32)
  (x4 x5 : FVec Ideal S256x1024 .f32) (x6 : FVec Ideal S1024 .f32) (x7 x8 : FVec Ideal S256x1024 .f32) (x9 : FVec Ideal S1024 .f32)
  (x10 : FVec Ideal S256x256 .f32) (x11 : FVec Ideal S256 .f32) (x12 : FVec Ideal S256x256 .f32) (x13 : FVec Ideal S256 .f32)
  (x14 : FVec Ideal S256x256 .f32) (x15 : FVec Ideal S256 .f32) (x16 : FVec Ideal S256x256 .f32) (x17 : FVec Ideal S256 .f32)
  (x18 : FVec Ideal S256x256 .f32) (x19 : FVec Ideal S256 .f32) (x20 : FVec Ideal S256x103 .f32) (x21 : FVec Ideal S103 .f32)
  (x22 : FVec Ideal S256x119 .f32) (x23 : FVec Ideal S119 .f32) (x24 : FVec Ideal S256x12 .f32) (x25 : FVec Ideal S12 .f32) (r : Fin 65536)

/-- Task 1's classifier. -/
theorem row_head1 : row (val_main_v121 (F := Ideal) x0 x1 x2 x3 x14 x15 x20 x21) r
    = head (row (val_main_v34 (F := Ideal) x0 x1 x2 x3) r) (mat x14) (vec1 x15) (mat x20) (vec1 x21) := by
  unfold val_main_v121 val_main_v118 val_main_v120 val_main_v119 val_main_v117 val_main_call0_v0 val_main_call0_cst
    val_main_v116 val_main_v113 val_main_v115 val_main_v114
  rw [hpre1_row _ plain_103, hrelu_row, hpre1_row _ plain_256]
  rfl

/-- Task 2's classifier. -/
theorem row_head2 : row (val_main_v130 (F := Ideal) x0 x1 x2 x3 x4 x5 x6 x16 x17 x22 x23) r
    = head (row (val_main_v68 (F := Ideal) x0 x1 x2 x3 x4 x5 x6) r) (mat x16) (vec1 x17) (mat x22) (vec1 x23) := by
  unfold val_main_v130 val_main_v127 val_main_v129 val_main_v128 val_main_v126 val_main_call1_v0 val_main_call1_cst
    val_main_v125 val_main_v122 val_main_v124 val_main_v123
  rw [hpre1_row _ plain_119, hrelu_row, hpre1_row _ plain_256]
  rfl

/-- Task 3's classifier. -/
theorem row_head3 : row (val_main_v139 (F := Ideal) x0 x1 x2 x3 x4 x5 x6 x7 x8 x9 x10 x11 x12 x13 x18 x19 x24 x25) r
    = head (row (val_main_v112 (F := Ideal) x0 x1 x2 x3 x4 x5 x6 x7 x8 x9 x10 x11 x12 x13) r) (mat x18) (vec1 x19) (mat x24)
        (vec1 x25) := by
  unfold val_main_v139 val_main_v136 val_main_v138 val_main_v137 val_main_v135 val_main_call2_v0 val_main_call2_cst
    val_main_v134 val_main_v131 val_main_v133 val_main_v132
  rw [hpre1_row _ plain_12, hrelu_row, hpre1_row _ plain_256]
  rfl

/-! ## The three results as whole arrays -/

/-- The weights the reference reads: the argument arrays but `Wr₁`. -/
abbrev params : Params :=
  arrayParams x1 x3 x4 x5 x6 x7 x8 x9 x10 x11 x12 x13 x14 x15 x16 x17 x18 x19 x20 x21 x22 x23 x24 x25

theorem ref_out1 : val_main_v121 (F := Ideal) x0 x1 x2 x3 x14 x15 x20 x21
    = G1 x0 (params x1 x3 x4 x5 x6 x7 x8 x9 x10 x11 x12 x13 x14 x15 x16 x17 x18 x19 x20 x21 x22 x23 x24 x25) := by
  funext i
  obtain ⟨r, q, rfl⟩ : ∃ (r : Fin 65536) (q : Fin 103), i = ix2 r q := ⟨i 0, i 1, eq_ix2 i⟩
  show row (val_main_v121 (F := Ideal) x0 x1 x2 x3 x14 x15 x20 x21) r q = _
  rw [row_head1, row_h1]
  rfl

theorem ref_out2 : val_main_v130 (F := Ideal) x0 x1 x2 x3 x4 x5 x6 x16 x17 x22 x23
    = G2 x0 (params x1 x3 x4 x5 x6 x7 x8 x9 x10 x11 x12 x13 x14 x15 x16 x17 x18 x19 x20 x21 x22 x23 x24 x25) := by
  funext i
  obtain ⟨r, q, rfl⟩ : ∃ (r : Fin 65536) (q : Fin 119), i = ix2 r q := ⟨i 0, i 1, eq_ix2 i⟩
  show row (val_main_v130 (F := Ideal) x0 x1 x2 x3 x4 x5 x6 x16 x17 x22 x23) r q = _
  rw [row_head2, row_h2, row_c2, row_z2, row_h1, row_c1]
  rfl

theorem ref_out3 : val_main_v139 (F := Ideal) x0 x1 x2 x3 x4 x5 x6 x7 x8 x9 x10 x11 x12 x13 x18 x19 x24 x25
    = G3 x0 (params x1 x3 x4 x5 x6 x7 x8 x9 x10 x11 x12 x13 x14 x15 x16 x17 x18 x19 x20 x21 x22 x23 x24 x25) := by
  funext i
  obtain ⟨r, q, rfl⟩ : ∃ (r : Fin 65536) (q : Fin 12), i = ix2 r q := ⟨i 0, i 1, eq_ix2 i⟩
  show row (val_main_v139 (F := Ideal) x0 x1 x2 x3 x4 x5 x6 x7 x8 x9 x10 x11 x12 x13 x18 x19 x24 x25) r q = _
  rw [row_head3, row_h3, row_c3, row_z3, row_c3in, row_h3in, row_h2, row_c2, row_z2, row_h1, row_c1]
  rfl

end Cert.ReferenceIdeal.RowValue

end
-- ==== Proof.lean ====
/-
  The certificate of the three-task recurrent classifier.

  The kernel tiles the 65536 input rows into 128 blocks of 512 and computes, per block, three gated recurrent cells
  (task 1 from the zero state, task 2 from task 1's state, task 3 from task 1's state plus a dense image of task 2's)
  and a two-layer classifier on each hidden state, feeding every product bf16 operands. The reference computes the
  same network on the whole arrays in f32, running task 1's cell from zero matrices it really multiplies, and spelling
  the logistic function as `1 / (1 + exp (-t))`.

  On the extended reals the roundings are the identity, a product into a zero accumulator and the host's product are
  the same sum, the logistic operation IS that quotient, and a zero state contributes nothing (`0 * w = 0`,
  `s * 0 = 0`, for infinite `w` too). So both programs compute, row by row, the functions `Spec.G1`, `G2`, `G3` of the
  argument arrays: the kernel block by block (KernelFinal.lean: what each point writes back, and the blocks tile the
  arrays), the reference stage by stage (RefHeads.lean). No law used needs the inputs finite; the precondition is
  not opened. The idealization rewrote no operation, so there is nothing to preserve.
-/
import proofs.«176691_j9079560863839_1_alg».proof.Defs
import proofs.«176691_j9079560863839_1_alg».proof.Proof.Gen.Kernel
import proofs.«176691_j9079560863839_1_alg».proof.Proof.KernelFrame
import proofs.«176691_j9079560863839_1_alg».proof.Proof.Gen.KernelIdeal
import proofs.«176691_j9079560863839_1_alg».proof.Proof.KernelIdealFrame
import proofs.«176691_j9079560863839_1_alg».proof.Proof.Gen.ReferenceIdeal
import proofs.«176691_j9079560863839_1_alg».proof.Proof.Gen.ReferenceIdeal.Run
import proofs.«176691_j9079560863839_1_alg».proof.Proof.Gen.ReferenceIdeal.Read
import proofs.«176691_j9079560863839_1_alg».proof.Proof.Gen.Pre_finite_inputs
import proofs.«176691_j9079560863839_1_alg».proof.Proof.KernelFinal
import proofs.«176691_j9079560863839_1_alg».proof.Proof.RefHeads
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- The two idealized programs end with the same three arrays: `G1`, `G2`, `G3` of the (agreeing) arguments. -/
theorem algebraic : Cert.algebraic_KernelIdeal_ReferenceIdeal := by
  intro m ρ m' ρ' _ hagree
  refine ⟨_, _, _, Cert.KernelIdeal.RowValue.run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17, h18, h19, h20, h21, h22, h23, h24, h25⟩ := hagree c
  refine ⟨(h c).1.trans ?_, (h c).2.1.trans ?_, (h c).2.2.1.trans ?_, (h c).2.2.2⟩
  · rw [Cert.ReferenceIdeal.Read.val_main_v121_eq,
      Cert.ReferenceIdeal.RowValue.ref_out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    unfold Cert.KernelIdeal.RowValue.argParams
    rw [h0, h1, h3, h4, h5, h6, h7, h8, h9, h10, h11, h12, h13, h14, h15, h16, h17, h18, h19, h20, h21, h22, h23, h24, h25]
  · rw [Cert.ReferenceIdeal.Read.val_main_v130_eq,
      Cert.ReferenceIdeal.RowValue.ref_out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    unfold Cert.KernelIdeal.RowValue.argParams
    rw [h0, h1, h3, h4, h5, h6, h7, h8, h9, h10, h11, h12, h13, h14, h15, h16, h17, h18, h19, h20, h21, h22, h23, h24, h25]
  · rw [Cert.ReferenceIdeal.Read.val_main_v139_eq,
      Cert.ReferenceIdeal.RowValue.ref_out3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    unfold Cert.KernelIdeal.RowValue.argParams
    rw [h0, h1, h3, h4, h5, h6, h7, h8, h9, h10, h11, h12, h13, h14, h15, h16, h17, h18, h19, h20, h21, h22, h23, h24, h25]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
